-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2048 : Shape := ⟨2, ![1024, 2048]⟩
abbrev S1024x16x128 : Shape := ⟨3, ![1024, 16, 128]⟩
abbrev S1024x1x1 : Shape := ⟨3, ![1024, 1, 1]⟩
abbrev S1x16x128 : Shape := ⟨3, ![1, 16, 128]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1, .f32⟩
  | .hbm, ⟨10, _⟩ => ⟨S_, .f32⟩
  | .hbm, ⟨11, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x1, .i32⟩
  | .local _ .vmem, ⟨5, _⟩ => ⟨S1024x1, .i32⟩
  | .local _ .vmem, ⟨6, _⟩ => ⟨S1x2048, .i32⟩
  | .local _ .vmem, ⟨7, _⟩ => ⟨S1x2048, .i32⟩
  | .local _ .vmem, ⟨8, _⟩ => ⟨S1024x1, .f32⟩
  | .local _ .vmem, ⟨9, _⟩ => ⟨S1024x1, .f32⟩
  | .local _ .vmem, ⟨10, _⟩ => ⟨S1x2048, .f32⟩
  | .local _ .vmem, ⟨11, _⟩ => ⟨S1x2048, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_26 : BitVec 32 := 0#32
  let v46 : BitVec 1 := Scalar.cmpi .ne v45 c0_i32_26
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  shapeCasts_S8192_S1x8192 : S8192.ShapeCasts S1x8192
  reducesTo_S8192x128_S8192_d1 : S8192x128.ReducesTo [1] S8192
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  shapeCasts_S1024x2048_S1024x16x128 : S1024x2048.ShapeCasts S1024x16x128
  shapeCasts_S1024x1_S1024x1x1 : S1024x1.ShapeCasts S1024x1x1
  shapeCasts_S1x2048_S1x16x128 : S1x2048.ShapeCasts S1x16x128
  broadcasts_S1024x1x1_S1024x16x128 : S1024x1x1.Broadcasts S1024x16x128
  broadcasts_S1x16x128_S1024x16x128 : S1x16x128.Broadcasts S1024x16x128
  reduces_S1024x16x128_S1024x128 : S1024x16x128.Reduces [1] S1024x128
  reduces_S1024x128_S1024 : S1024x128.Reduces [1] S1024
  shapeCasts_S1024_S1024x1 : S1024.ShapeCasts S1024x1
  reducesTo_S8192x1_S_d0_1 : S8192x1.ReducesTo [0, 1] S_
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_call0_v0 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_call1_v0 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_call2_cst : Ref sig .tc := ⟨.hbm, 39, rfl⟩
abbrev main_call2_v0 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsBase.lean ====
/-
  What every part of the kernel's run is stated over.

  The program is: seven host operations (the labels as a column and as a row, the squared norms of the rows as a
  column and as a row), one region on an 8 × 4 grid, two host operations (the sum of the region's [8192, 1] result).
  Point t of the grid is (i, j) = (t / 4, t % 4): row tile i of 1024 rows against column tile j of 2048 columns.
  The body resets its two lane-wise accumulators at j = 0, folds the tile's maxima and minima into them at every j,
  and at j = 3 reduces them across lanes and stores the row tile's 1024 hinge losses.
  Here: the arrays as the region finds them, each window's block at a point, the two branch conditions in closed
  form over the grid, where the result window is idle, and the memrefs the body is called with.
-/
import proofs.«170419_j50818053046377_2_alg».proof.Proof.Gen.Kernel.Launch
import proofs.«170419_j50818053046377_2_alg».proof.Proof.Gen.Kernel.Skeleton
import proofs.«170419_j50818053046377_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: after the seven host operations. -/
abbrev V0 (c : Dev nD) : Valuation τ sig (Elt F) := StableHlo.after hostOps0 (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an unfetched
    input's block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    input's block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    input's block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an unfetched
    input's block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an unfetched
    input's block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an unfetched
    input's block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, over the grid -/

/-- The first branch (reset the accumulators) is taken where the column tile is the first, -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- and the second (reduce across lanes and store the losses) where it is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The result window is idle, and not written back, wherever the column tile is not the last; -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- and live where it is. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x128 .f32 := Memref.whole cc0_scratch0
abbrev scM0_1 : Memref sig .tc .vmem S1024x128 .f32 := Memref.whole cc0_scratch1
abbrev VS0_0 : View sig .tc .vmem S1024x128 .f32 := scM0_0.view
abbrev VS0_1 : View sig .tc .vmem S1024x128 .f32 := scM0_1.view
/-- One staging buffer of the result window, through which its contents are stated. -/
abbrev VO0_6 : View sig .tc .vmem S1024x1 .f32 := (Memref.whole cc0_stg6_0 : Memref sig .tc .vmem S1024x1 .f32).view

/-- The core's scoped buffers that no window stages are the two accumulators, each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Frm

end
-- ==== Proof.BitsRunA.lean ====
/-
  The body run in case A: which branches are taken is fixed by the case's hypotheses; on whole staging memrefs — the six
  inputs at their blocks, the accumulators at anything (they are reset before they are read) — the body runs to its end with the inputs as they were and
  each accumulator holding the pieces the body's stores wrote, last store first.
-/
import proofs.«170419_j50818053046377_2_alg».proof.Proof.BitsBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) :
    Σ' (LS0 : List (View.Piece (Elt F) S1024x128 .f32)), { LS1 : List (View.Piece (Elt F) S1024x128 .f32) //
      ∀ (x6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__hard_triplet_kernel i arg2 harg2 arg3 harg3 arg4 harg4 arg5 harg5 arg6 harg6 arg7 harg7 arg8 harg8 arg9 harg9 arg10 harg10) K } := by
  refine ⟨?_, ?_, fun x6 E K => ?run⟩
  case run =>
    simp only [cc0__hard_triplet_kernel_eq_skeleton]; unfold cc0__hard_triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [HS0]; · iexists _; iexact HS0
    iexists _; iexact HS1

end Cert.Kernel.Frm

end
-- ==== Proof.BitsRunB.lean ====
/-
  The body run in case B: which branches are taken is fixed by the case's hypotheses; on whole staging memrefs — the six
  inputs at their blocks, the accumulators at what the point before left — the body runs to its end with the inputs as they were and
  each accumulator holding the pieces the body's stores wrote, last store first.
-/
import proofs.«170419_j50818053046377_2_alg».proof.Proof.BitsRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    Σ' (LS0 : List (View.Piece (Elt F) S1024x128 .f32)), { LS1 : List (View.Piece (Elt F) S1024x128 .f32) //
      ∀ (x6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__hard_triplet_kernel i arg2 harg2 arg3 harg3 arg4 harg4 arg5 harg5 arg6 harg6 arg7 harg7 arg8 harg8 arg9 harg9 arg10 harg10) K } := by
  refine ⟨?_, ?_, fun x6 E K => ?run⟩
  case run =>
    simp only [cc0__hard_triplet_kernel_eq_skeleton]; unfold cc0__hard_triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [HS0]; · iexists _; iexact HS0
    iexists _; iexact HS1

end Cert.Kernel.Frm

end
-- ==== Proof.BitsRunC.lean ====
/-
  The body run in case C: which branches are taken is fixed by the case's hypotheses; on whole staging memrefs — the six
  inputs at their blocks, the accumulators at what the point before left — the body runs to its end with the inputs as they were and
  each accumulator and the result's buffer holding the pieces the body's stores wrote, last store first.
-/
import proofs.«170419_j50818053046377_2_alg».proof.Proof.BitsRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    Σ' (L6 : List (View.Piece (Elt F) S1024x1 .f32)) (LS0 : List (View.Piece (Elt F) S1024x128 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__hard_triplet_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__hard_triplet_kernel_eq_skeleton]; unfold cc0__hard_triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Frm

end
-- ==== Proof.BitsFrame.lean ====
/-
  What the accumulators and the result buffer hold after every grid point, and the body obligation.

  Each case's run names the pieces its stores wrote; every store of the body goes through a buffer's whole rectangle,
  so the pieces cover the buffer and what it holds afterwards is read off them.  Point by point: at the first column
  tile of a row tile (case A) the accumulators are reset and then folded with the tile's maxima and minima; at the
  middle tiles (case B) they are folded into what the point before left; at the last (case C) they are folded once
  more, reduced across lanes, and the 1024 hinge losses are stored into the result's buffer.  The result window is idle
  at the other points: its buffer is handed back untouched.
-/
import proofs.«170419_j50818053046377_2_alg».proof.Proof.BitsRunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for accumulator 0 cover it (every store goes through its whole rectangle). -/
theorem scover0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1024x128.size (by sl_kernel_rfl) y

/-- What case A leaves in accumulator 0. -/
def sout0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).1)

/-- Case A's pieces for accumulator 1 cover it (every store goes through its whole rectangle). -/
theorem scover0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y

/-- What case A leaves in accumulator 1. -/
def sout0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.1)

/-- Case B's pieces for accumulator 0 cover it (every store goes through its whole rectangle). -/
theorem scover0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y

/-- What case B leaves in accumulator 0. -/
def sout0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).1)

/-- Case B's pieces for accumulator 1 cover it (every store goes through its whole rectangle). -/
theorem scover0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S1024x128.size (by sl_kernel_rfl) y

/-- What case B leaves in accumulator 1. -/
def sout0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.1)

/-- Case C's pieces for accumulator 0 cover it (every store goes through its whole rectangle). -/
theorem scover0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S1024x128.size (by sl_kernel_rfl) y

/-- What case C leaves in accumulator 0. -/
def sout0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)

/-- Case C's pieces for accumulator 1 cover it (every store goes through its whole rectangle). -/
theorem scover0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S1024x128.size (by sl_kernel_rfl) y

/-- What case C leaves in accumulator 1. -/
def sout0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-- Case C's one store into the result's buffer covers it. -/
theorem cover0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y

/-- What case C leaves in the result's buffer. -/
def out0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

/-- Where the result window is idle nothing reads this component. -/
def idle6 : Vec F S1024x1 .f32 := VO0_6.read (Elt F) VO0_6.junk

/-! ## The accumulation over the grid points -/

/-- What the result's buffer and the two accumulators hold after the body at position `n`: the case the closed forms
    select there, run on the point's blocks, cases B and C over what position `n - 1` left in the accumulators. -/
def outsAt0 (c : Dev nD) : (n : ℕ) → n < cfg0.N → Vec F S1024x1 .f32 × Vec F S1024x128 .f32 × Vec F S1024x128 .f32
  | 0, hn => (idle6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ 0 % 4 = 3; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ 0 % 4 = 3; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (idle6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => absurd ((hcond0_1 ⟨n + 1, hn⟩).mp h) (by show ¬ (n + 1) % 4 = 3; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => absurd ((hcond0_1 ⟨n + 1, hn⟩).mp h) (by show ¬ (n + 1) % 4 = 3; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
      else
        (idle6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (idle6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = (idle6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two accumulators at anything; afterwards
    each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The proof data on core `c`: the arrays as the region finds them; after the body each input's buffer at its block
    and the result's at `outsAt0`; the invariant `PhiS`; nothing owed.  The array read through two windows is held
    at one half of the full share by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the closed forms say which case the point is in; that
    case's run applies; the invariant hands over the accumulators at what the point before left (at anything at the
    first point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · have h1 : ¬t.val % 4 = 3 := by omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, scopedRest0_owns]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ )
          unfold owns; iexists _; isplitr
          swap; · iexact HS1
          ipureintro; exact View.read_writes_of_cover _ _ _ _ _ (scover0_A_1 c _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ )
          unfold owns; iexists _; isplitr
          swap; · iexact HS1
          ipureintro; exact View.read_writes_of_cover _ _ _ _ _ (scover0_A_1 c _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold sout0_C_0 sout0_C_1 out0_C_6; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ )
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ )

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ )
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.BitsShared.lean ====
/-
  One array read through two windows.

  Windows 0 and 1 of the kernel's pipeline both read the first argument array, at different blocks; the other five
  windows each have an array of their own.  The launch hands the pipeline the six distinct buffers behind the seven
  windows' arrays, each whole at the full share.  The pipeline's own account holds one points-to per window: the first
  argument array twice, at the left and at the right half of the full share, and the other arrays at the full share.
  A points-to at a share q is the same as the two points-tos at q's left and right halves, so the two accounts
  entail each other, array by array.
-/
import proofs.«170419_j50818053046377_2_alg».proof.Proof.BitsBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A window's array is a whole buffer: held at the share the pipeline keeps it at, it is the buffer's points-to at
    that share. -/
theorem arr_at (c : Dev nD) (dat : Dat τ (Elt F) Unit ℕ (UR sig nD τ) ℕ cfg0 c) (w : Fin 7) (q : PosShare TreeShare)
    (hs : dat.share w = q) (g : Buf (Elt F) ((cfg0.win w).arr.view.loc (c.tc : Thread nD τ))) :
    ((cfg0.win w).arr.view.loc (c.tc : Thread nD τ) ↦[(cfg0.win w).arr.view.set]{dat.share w} g : sProp 𝕄)
      = ((cfg0.win w).arr.view.loc (c.tc : Thread nD τ) ↦{q} g) := by
  rw [(arr_whole0 w).set_eq_univ, hs]

/-- The pipeline's account of its arrays, window by window, over the buffers behind them. -/
theorem arrays_eq_chain (c : Dev nD) (dat : Dat τ (Elt F) Unit ℕ (UR sig nD τ) ℕ cfg0 c)
    (hq0 : dat.q 0 = fullShare.left) (hq1 : dat.q 1 = fullShare.right) (hq : ∀ w : Fin 7, 2 ≤ w.val → dat.q w = fullShare)
    (G : (w : Fin cfg0.W) → Buf (Elt F) ((cfg0.win w).arr.view.loc (c.tc : Thread nD τ))) :
    (dat.arrays G : sProp 𝕄) = iprop((((c : Thread nD τ).loc main_arg0) ↦{fullShare.left} G 0) ∗ (((c : Thread nD τ).loc main_arg0) ↦{fullShare.right} G 1) ∗ (((c : Thread nD τ).loc main_v0) ↦{fullShare} G 2) ∗ (((c : Thread nD τ).loc main_v1) ↦{fullShare} G 3) ∗ (((c : Thread nD τ).loc main_v4) ↦{fullShare} G 4) ∗ (((c : Thread nD τ).loc main_v5) ↦{fullShare} G 5) ∗ (((c : Thread nD τ).loc main_v6) ↦{fullShare} G 6)) := by
  have s0 : dat.share 0 = fullShare.left := hq0
  have s1 : dat.share 1 = fullShare.right := hq1
  have s2 : dat.share 2 = fullShare := hq 2 (by decide)
  have s3 : dat.share 3 = fullShare := hq 3 (by decide)
  have s4 : dat.share 4 = fullShare := hq 4 (by decide)
  have s5 : dat.share 5 = fullShare := hq 5 (by decide)
  have s6 : dat.share 6 = fullShare := rfl
  unfold Dat.arrays
  rw [bigSep_W0, arr_at c dat 0 _ s0, arr_at c dat 1 _ s1, arr_at c dat 2 _ s2, arr_at c dat 3 _ s3, arr_at c dat 4 _ s4,
    arr_at c dat 5 _ s5, arr_at c dat 6 _ s6]

/-- The six distinct buffers behind the seven windows' arrays, each whole at the full share, give the pipeline's
    account of its arrays: the first argument array's points-to is split into its left and right halves for windows 0
    and 1. -/
theorem arrays_of_arrBufs (c : Dev nD) (dat : Dat τ (Elt F) Unit ℕ (UR sig nD τ) ℕ cfg0 c)
    (hq0 : dat.q 0 = fullShare.left) (hq1 : dat.q 1 = fullShare.right) (hq : ∀ w : Fin 7, 2 ≤ w.val → dat.q w = fullShare)
    (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (Pipeline.arrBufs spec0 c W : sProp 𝕄) ⊢ dat.arrays G := by
  rw [arrays_eq_chain c dat hq0 hq1 hq G, hG 0, hG 1, hG 2, hG 3, hG 4, hG 5, hG 6]
  unfold Pipeline.arrBufs
  rw [bigSep_eq_bigSepL_of_eq [main_arg0, main_v0, main_v1, main_v4, main_v5, main_v6] (by decide) (by decide)]
  show iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
    ⊢ iprop((((c : Thread nD τ).loc main_arg0) ↦{fullShare.left} W main_arg0) ∗ (((c : Thread nD τ).loc main_arg0) ↦{fullShare.right} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
  exact (sep_mono_left (pointsTo_share (PosShare.mem_left_op_right fullShare)).1).trans sep_assoc.1

/-- Conversely the pipeline's account of its arrays gives back the six distinct buffers, each whole at the full share:
    windows 0 and 1 hold the first argument array at the same contents, at the left and the right half of the full
    share, and the two halves join. -/
theorem arrBufs_of_arrays (c : Dev nD) (dat : Dat τ (Elt F) Unit ℕ (UR sig nD τ) ℕ cfg0 c)
    (hq0 : dat.q 0 = fullShare.left) (hq1 : dat.q 1 = fullShare.right) (hq : ∀ w : Fin 7, 2 ≤ w.val → dat.q w = fullShare)
    (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (dat.arrays G : sProp 𝕄) ⊢ Pipeline.arrBufs spec0 c W := by
  rw [arrays_eq_chain c dat hq0 hq1 hq G, hG 0, hG 1, hG 2, hG 3, hG 4, hG 5, hG 6]
  unfold Pipeline.arrBufs
  rw [bigSep_eq_bigSepL_of_eq [main_arg0, main_v0, main_v1, main_v4, main_v5, main_v6] (by decide) (by decide)]
  show iprop((((c : Thread nD τ).loc main_arg0) ↦{fullShare.left} W main_arg0) ∗ (((c : Thread nD τ).loc main_arg0) ↦{fullShare.right} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
    ⊢ iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
  exact sep_assoc.2.trans (sep_mono_left (pointsTo_share (PosShare.mem_left_op_right fullShare)).2)

end Cert.Kernel.Frm

end
-- ==== Proof.BitsLaunch.lean ====
/-
  The launch: @main as three segments — the seven host operations, the region, the two host operations — and the run.

  Between segments the core holds every unscoped buffer whole at a valuation: the launch contents, then those after the
  seven operations, then those with the region's result array in place, then those after the last two operations.  At
  the region's entry the array both the row-tile window and the column-tile window read is dealt to them in two
  halves; at its exit the halves, which still hold the same contents, are joined again.  The two accumulators are the
  kernel's own scoped buffers: they enter the region's invariant at anything and are forgotten at its exit.
-/
import proofs.«170419_j50818053046377_2_alg».proof.Proof.BitsFrame
import proofs.«170419_j50818053046377_2_alg».proof.Proof.BitsShared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
/-- No core owes another anything: no level is assigned. -/
abbrev Lz : GSem nD τ sig → Finset Unit := fun _ => ∅
abbrev lvz : GSem nD τ sig → Unit → ℕ := fun _ _ => 0
abbrev adm : (p : Fin 1) → (pcfgs (F := F) p).Adm := fun p => (cfgs p).toPCfg_adm
/-- What rides beside the buffers: the core owing nothing. -/
abbrev Rw (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- Core `c`'s buffers at launch, as a valuation. -/
abbrev Wl (c : Dev nD) : Valuation τ sig (Elt F) := fun b => m (c, b)

/-- The result array after the region. -/
abbrev fin6 (c : Dev nD) : Buf (Elt F) ((c : Thread nD τ).loc main_v6) := (dats m 0 c).arrAt 6 cfg0.N

/-- Core `c`'s buffers when the region is left: as it was entered, with the result array in place. -/
def We (c : Dev nD) : Valuation τ sig (Elt F) := Function.update (V0 m c) (Proc.devRef .tc main_v6) (fin6 m c)

theorem We_v6 (c : Dev nD) : We m c (Proc.devRef .tc main_v6) = fin6 m c := Function.update_self _ _ _
theorem We_ne (c : Dev nD) (b : Ref sig .tc) (h : b ≠ main_v6) : We m c (Proc.devRef .tc b) = V m c b :=
  Function.update_of_ne (fun e => h (Proc.devRef_injective _ e)) _ _

/-- Each input window holds half of its array where two windows read one, all of it elsewhere. -/
theorem q_rest (c : Dev nD) : ∀ w : Fin 7, 2 ≤ w.val → (dats m 0 c).q w = fullShare := by
  intro w hw
  match w, hw with
  | ⟨0, _⟩, hw => simp at hw
  | ⟨1, _⟩, hw => simp at hw
  | ⟨2, _⟩, _ => rfl
  | ⟨3, _⟩, _ => rfl
  | ⟨4, _⟩, _ => rfl
  | ⟨5, _⟩, _ => rfl
  | ⟨6, _⟩, _ => rfl

/-- The arrays after the region are the exit valuation's: an input's array is never written, the result's is `fin6`. -/
theorem We_arr (c : Dev nD) (w : Fin cfg0.W) : (dats m 0 c).arrAt w cfg0.N = We m c (Proc.devRef .tc (Pipeline.arrRef spec0 w)) := by
  match w with
  | ⟨0, _⟩ => exact ((dats m 0 c).arrAt_in 0 rfl _).trans ((A_eq m c 0).trans (We_ne m c main_arg0 (by decide)).symm)
  | ⟨1, _⟩ => exact ((dats m 0 c).arrAt_in 1 rfl _).trans ((A_eq m c 1).trans (We_ne m c main_arg0 (by decide)).symm)
  | ⟨2, _⟩ => exact ((dats m 0 c).arrAt_in 2 rfl _).trans ((A_eq m c 2).trans (We_ne m c main_v0 (by decide)).symm)
  | ⟨3, _⟩ => exact ((dats m 0 c).arrAt_in 3 rfl _).trans ((A_eq m c 3).trans (We_ne m c main_v1 (by decide)).symm)
  | ⟨4, _⟩ => exact ((dats m 0 c).arrAt_in 4 rfl _).trans ((A_eq m c 4).trans (We_ne m c main_v4 (by decide)).symm)
  | ⟨5, _⟩ => exact ((dats m 0 c).arrAt_in 5 rfl _).trans ((A_eq m c 5).trans (We_ne m c main_v5 (by decide)).symm)
  | ⟨6, _⟩ => exact (We_v6 m c).symm

/-- The buffers that bypass the region are the same under the entry and the exit valuation. -/
theorem rest_eq (c : Dev nD) :
    (Pipeline.unscopedRest (Ix := Unit) (Name := ℕ) (U := UR sig nD τ) (Lvl := ℕ) spec0 c (fun b => We m c (Proc.devRef .tc b)) : sProp 𝕄)
      = Pipeline.unscopedRest spec0 c (V m c) := by
  rw [unscopedRest0_eq, unscopedRest0_eq]
  rw [We_ne m c main_arg1 (by decide), We_ne m c main_v2 (by decide), We_ne m c main_cst (by decide), We_ne m c main_v3 (by decide), We_ne m c main_cst_0 (by decide), We_ne m c main_v7 (by decide)]

/-- THE FIRST HOST SEGMENT: the seven operations over the unscoped buffers. -/
def seg0 : Pipeline.HostSeg (Name := ℕ) (U := UR sig nD τ) (pcfgs (F := F)) defs₀ Variants.none Lz lvz :=
  Pipeline.HostSeg.ofOps _ _ _ _ _ (Pipeline.ucRefs τ sig) hostOps0 (fun op h => Pipeline.sub_ucRefs op ((List.forall_iff_forall_mem.mp hostOps0_sub) op h))
    hostOps0_fresh (Wl m) Rw

/-- THE LAST HOST SEGMENT: the two operations, from the exit valuation. -/
def seg1 : Pipeline.HostSeg (Name := ℕ) (U := UR sig nD τ) (pcfgs (F := F)) defs₀ Variants.none Lz lvz :=
  Pipeline.HostSeg.ofOps _ _ _ _ _ (Pipeline.ucRefs τ sig) hostOps1 (fun op h => Pipeline.sub_ucRefs op ((List.forall_iff_forall_mem.mp hostOps1_sub) op h))
    hostOps1_fresh (We m) Rw

set_option backward.isDefEq.respectTransparency.types false in
/-- THE REGION. -/
def reg0 : Pipeline.RegionSeg (pcfgs (F := F)) adm (dats m) () defs₀ Variants.none Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (StableHlo.after hostOps0 (Wl m c)) ∗ Rw c)
  post c := iprop(StableHlo.held (c : Thread nD τ) (Pipeline.ucRefs τ sig) (We m c) ∗ Rw c)
  X _ := iprop(emp)
  Y _ := iprop(emp)
  Z c := Pipeline.unscopedRest spec0 c (V m c)
  hentry c := by
    rw [show StableHlo.held (c : Thread nD τ) (Pipeline.ucRefs τ sig) (StableHlo.after hostOps0 (Wl m c)) = unscopedBufs c (V m c) from (Pipeline.unscopedBufs_held c _).symm,
      Pipeline.unscopedBufs_split₀ cfgs 0 winFacts₀0.arr_unscoped c (V m c)]
    iintro ⟨⟨⟨Harr, Hrest⟩, HO⟩, -, -⟩
    imodintro
    isplitl [Harr]
    · iapply (arrays_of_arrBufs c (dats m 0 c) rfl rfl (q_rest m c) (V m c) _ (fun w => A_eq m c w)) $$ Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_0; omega), scopedRest0_owns]
    iintro ⟨H0, H1⟩
    isplitr; · iempintro
    isplitr; · iempintro
    isplitl [H0]; · iexists _; iexact H0
    iexists _; iexact H1
  hexit c := by
    rw [← Pipeline.unscopedBufs_held c (We m c), Pipeline.unscopedBufs_split₀ cfgs 0 winFacts₀0.arr_unscoped c _, rest_eq m c]
    iintro ⟨Ha, HO, -, HZ⟩
    imodintro
    isplitr [HO]
    · isplitl [Ha]
      · iapply (arrBufs_of_arrays c (dats m 0 c) rfl rfl (q_rest m c) (fun b => We m c (Proc.devRef .tc b)) _ (fun w => We_arr m c w)) $$ Ha
      · iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none Lz lvz) := [.host (seg0 m), .region (reg0 m), .host (seg1 m)]

/-- What every final state holds: each unscoped buffer at what the last two operations leave from the exit valuation. -/
def QC : PUnit × MemSt nD τ sig (Elt F) → Prop := fun r =>
  ∀ c : Dev nD, ∀ b ∈ Pipeline.ucRefs τ sig, r.2.mem ((c : Thread nD τ).1, b) = StableHlo.after hostOps1 (We m c) b

set_option backward.isDefEq.respectTransparency.types false in
/-- At the compiled mesh, for any float values, from any memory with zero counters: every weakly fair execution of
    @main terminates, and every final state has every unscoped buffer at the computed contents. -/
theorem run_main : θ_run defs (onTc (τ := τ) (main (F := F))) (s₀ m ρ) (QC m) :=
  Pipeline.θ_run_regions_kit (pcfgs (F := F)) adm (dats m) () cellOf_inj EP defs₀ Variants.none Lz lvz m ρ main (segs m)
    (fun c Q => by rw [main_segs adm (dats m) () Variants.none Lz lvz (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ Rw c))
    (Tₙ := fun c => StableHlo.held (c : Thread nD τ) (Pipeline.ucRefs τ sig) (StableHlo.after hostOps1 (We m c)))
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wl m c) from Pipeline.unscopedBufs_held c (Wl m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = StableHlo.after hostOps1 (We m c) b)
    (hfin := fun c s' => by
      unfold StableHlo.held
      iintro ⟨Hh, HSI⟩
      ihave Hr := (pointsTo_read_all (Pipeline.ucRefs τ sig) (fun b => ((c : Thread nD τ).1, b)) (StableHlo.after hostOps1 (We m c)) s') $$ [Hh HSI]
      · isplitl [Hh] <;> iassumption
      icases Hr with ⟨%h, HSI⟩
      imodintro
      isplitr; · ipureintro; exact h
      iexact HSI)
    (hQ := fun _ h => h)

end Cert.Kernel.Frm

end
-- ==== Proof.BitsClaim.lean ====
/-
  The frame, read off the run: neither argument array is written by any host operation, and as arrays of input
  windows the region leaves them as it found them; so every final state holds both as launched.  The result, the
  scalar the last host operation writes, is that operation's value at the exit valuation.
-/
import proofs.«170419_j50818053046377_2_alg».proof.Proof.BitsLaunch

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that none of the seven operations before the region writes. -/
theorem not_written0 (b : Ref sig .tc) (h0 : b ≠ main_v0) (h1 : b ≠ main_v1) (h2 : b ≠ main_v2) (h3 : b ≠ main_cst) (h4 : b ≠ main_v3)
    (h5 : b ≠ main_v4) (h6 : b ≠ main_v5) : ∀ op ∈ (hostOps0 (F := F)), Proc.devRef .tc b ∉ op.writes := by
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer that neither of the two operations after the region writes. -/
theorem not_written1 (b : Ref sig .tc) (h0 : b ≠ main_cst_0) (h1 : b ≠ main_v7) : ∀ op ∈ (hostOps1 (F := F)), Proc.devRef .tc b ∉ op.writes := by
  intro op hop
  simp only [List.mem_cons, List.mem_nil_iff, or_false] at hop
  rcases hop with rfl | rfl <;>
    simp only [StableHlo.unary_writes, StableHlo.binary_writes, StableHlo.nullary_writes, StableHlo.reshape_writes, Finset.mem_singleton] <;>
    exact StableHlo.devRef_ne_of_ne ‹_›

/-- An unscoped reference is among the buffers the host operations run within. -/
theorem mem_ucRefs (b : Ref sig .tc) (h : (Proc.devRef (τ := τ) .tc b).isScoped = false) : Proc.devRef .tc b ∈ Pipeline.ucRefs τ sig := by
  unfold Pipeline.ucRefs StableHlo.tcRefs
  exact Finset.mem_filter.mpr ⟨Finset.mem_map.mpr ⟨b, Finset.mem_univ _, rfl⟩, by rw [h]; exact Bool.false_ne_true⟩

/-- An argument reaches the end as launched. -/
theorem kept_arg0 (c : Dev nD) : StableHlo.after hostOps1 (We m c) (Proc.devRef .tc main_arg0) = m ((c : Thread nD τ).loc main_arg0) :=
  (StableHlo.after_of_forall_not_mem hostOps1 _ (not_written1 main_arg0 (by decide) (by decide))).trans
    ((We_ne m c main_arg0 (by decide)).trans (StableHlo.after_of_forall_not_mem hostOps0 _ (not_written0 main_arg0 (by decide) (by decide) (by decide) (by decide) (by decide) (by decide) (by decide))))
theorem kept_arg1 (c : Dev nD) : StableHlo.after hostOps1 (We m c) (Proc.devRef .tc main_arg1) = m ((c : Thread nD τ).loc main_arg1) :=
  (StableHlo.after_of_forall_not_mem hostOps1 _ (not_written1 main_arg1 (by decide) (by decide))).trans
    ((We_ne m c main_arg1 (by decide)).trans (StableHlo.after_of_forall_not_mem hostOps0 _ (not_written0 main_arg1 (by decide) (by decide) (by decide) (by decide) (by decide) (by decide) (by decide))))

/-- THE RUN, read at the result and the two arguments. -/
theorem run_result : θ_run defs (onTc (τ := τ) (main (F := F))) ⟨m, fun _ => 0, ρ⟩ (fun r => ∀ c : Dev nD,
      r.2.mem ((c.tc : Thread nD τ).loc main_v7) = StableHlo.after hostOps1 (We m c) (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_ucRefs main_v7 (by decide)),
      (h c _ (mem_ucRefs main_arg0 (by decide))).trans (kept_arg0 m c), (h c _ (mem_ucRefs main_arg1 (by decide))).trans (kept_arg1 m c)⟩) (run_main m ρ)

/-- THE FRAME: the program runs to its end from any memory and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.Kernel.Frm

end
-- ==== Proof.IdealBase.lean ====
/-
  What every part of the kernel's run is stated over.

  The program is: seven host operations (the labels as a column and as a row, the squared norms of the rows as a
  column and as a row), one region on an 8 × 4 grid, two host operations (the sum of the region's [8192, 1] result).
  Point t of the grid is (i, j) = (t / 4, t % 4): row tile i of 1024 rows against column tile j of 2048 columns.
  The body resets its two lane-wise accumulators at j = 0, folds the tile's maxima and minima into them at every j,
  and at j = 3 reduces them across lanes and stores the row tile's 1024 hinge losses.
  Here: the arrays as the region finds them, each window's block at a point, the two branch conditions in closed
  form over the grid, where the result window is idle, and the memrefs the body is called with.
-/
import proofs.«170419_j50818053046377_2_alg».proof.Proof.Gen.KernelIdeal.Launch
import proofs.«170419_j50818053046377_2_alg».proof.Proof.Gen.KernelIdeal.Skeleton
import proofs.«170419_j50818053046377_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: after the seven host operations. -/
abbrev V0 (c : Dev nD) : Valuation τ sig (Elt F) := StableHlo.after hostOps0 (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an unfetched
    input's block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    input's block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    input's block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an unfetched
    input's block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: an unfetched
    input's block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: an unfetched
    input's block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, over the grid -/

/-- The first branch (reset the accumulators) is taken where the column tile is the first, -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- and the second (reduce across lanes and store the losses) where it is the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The result window is idle, and not written back, wherever the column tile is not the last; -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- and live where it is. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- The two accumulators: whole scoped buffers of the kernel's own. -/
abbrev scM0_0 : Memref sig .tc .vmem S1024x128 .f32 := Memref.whole cc0_scratch0
abbrev scM0_1 : Memref sig .tc .vmem S1024x128 .f32 := Memref.whole cc0_scratch1
abbrev VS0_0 : View sig .tc .vmem S1024x128 .f32 := scM0_0.view
abbrev VS0_1 : View sig .tc .vmem S1024x128 .f32 := scM0_1.view
/-- One staging buffer of the result window, through which its contents are stated. -/
abbrev VO0_6 : View sig .tc .vmem S1024x1 .f32 := (Memref.whole cc0_stg6_0 : Memref sig .tc .vmem S1024x1 .f32).view

/-- The core's scoped buffers that no window stages are the two accumulators, each owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Frm

end
-- ==== Proof.IdealRunA.lean ====
/-
  The body run in case A: which branches are taken is fixed by the case's hypotheses; on whole staging memrefs — the six
  inputs at their blocks, the accumulators at anything (they are reset before they are read) — the body runs to its end with the inputs as they were and
  each accumulator holding the pieces the body's stores wrote, last store first.
-/
import proofs.«170419_j50818053046377_2_alg».proof.Proof.IdealBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) :
    Σ' (LS0 : List (View.Piece (Elt F) S1024x128 .f32)), { LS1 : List (View.Piece (Elt F) S1024x128 .f32) //
      ∀ (x6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__hard_triplet_kernel i arg2 harg2 arg3 harg3 arg4 harg4 arg5 harg5 arg6 harg6 arg7 harg7 arg8 harg8 arg9 harg9 arg10 harg10) K } := by
  refine ⟨?_, ?_, fun x6 E K => ?run⟩
  case run =>
    simp only [cc0__hard_triplet_kernel_eq_skeleton]; unfold cc0__hard_triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [HS0]; · iexists _; iexact HS0
    iexists _; iexact HS1

end Cert.KernelIdeal.Frm

end
-- ==== Proof.IdealRunB.lean ====
/-
  The body run in case B: which branches are taken is fixed by the case's hypotheses; on whole staging memrefs — the six
  inputs at their blocks, the accumulators at what the point before left — the body runs to its end with the inputs as they were and
  each accumulator holding the pieces the body's stores wrote, last store first.
-/
import proofs.«170419_j50818053046377_2_alg».proof.Proof.IdealRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    Σ' (LS0 : List (View.Piece (Elt F) S1024x128 .f32)), { LS1 : List (View.Piece (Elt F) S1024x128 .f32) //
      ∀ (x6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__hard_triplet_kernel i arg2 harg2 arg3 harg3 arg4 harg4 arg5 harg5 arg6 harg6 arg7 harg7 arg8 harg8 arg9 harg9 arg10 harg10) K } := by
  refine ⟨?_, ?_, fun x6 E K => ?run⟩
  case run =>
    simp only [cc0__hard_triplet_kernel_eq_skeleton]; unfold cc0__hard_triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, H6, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [HS0]; · iexists _; iexact HS0
    iexists _; iexact HS1

end Cert.KernelIdeal.Frm

end
-- ==== Proof.IdealRunC.lean ====
/-
  The body run in case C: which branches are taken is fixed by the case's hypotheses; on whole staging memrefs — the six
  inputs at their blocks, the accumulators at what the point before left — the body runs to its end with the inputs as they were and
  each accumulator and the result's buffer holding the pieces the body's stores wrote, last store first.
-/
import proofs.«170419_j50818053046377_2_alg».proof.Proof.IdealRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    Σ' (L6 : List (View.Piece (Elt F) S1024x1 .f32)) (LS0 : List (View.Piece (Elt F) S1024x128 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__hard_triplet_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__hard_triplet_kernel_eq_skeleton]; unfold cc0__hard_triplet_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Frm

end
-- ==== Proof.IdealFrame.lean ====
/-
  What the accumulators and the result buffer hold after every grid point, and the body obligation.

  Each case's run names the pieces its stores wrote; every store of the body goes through a buffer's whole rectangle,
  so the pieces cover the buffer and what it holds afterwards is read off them.  Point by point: at the first column
  tile of a row tile (case A) the accumulators are reset and then folded with the tile's maxima and minima; at the
  middle tiles (case B) they are folded into what the point before left; at the last (case C) they are folded once
  more, reduced across lanes, and the 1024 hinge losses are stored into the result's buffer.  The result window is idle
  at the other points: its buffer is handed back untouched.
-/
import proofs.«170419_j50818053046377_2_alg».proof.Proof.IdealRunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for accumulator 0 cover it (every store goes through its whole rectangle). -/
theorem scover0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1024x128.size (by sl_kernel_rfl) y

/-- What case A leaves in accumulator 0. -/
def sout0_A_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).1)

/-- Case A's pieces for accumulator 1 cover it (every store goes through its whole rectangle). -/
theorem scover0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y

/-- What case A leaves in accumulator 1. -/
def sout0_A_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.1)

/-- Case B's pieces for accumulator 0 cover it (every store goes through its whole rectangle). -/
theorem scover0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).1 S1024x128.size (by sl_kernel_rfl) y

/-- What case B leaves in accumulator 0. -/
def sout0_B_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).1)

/-- Case B's pieces for accumulator 1 cover it (every store goes through its whole rectangle). -/
theorem scover0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S1024x128.size (by sl_kernel_rfl) y

/-- What case B leaves in accumulator 1. -/
def sout0_B_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.1)

/-- Case C's pieces for accumulator 0 cover it (every store goes through its whole rectangle). -/
theorem scover0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S1024x128.size (by sl_kernel_rfl) y

/-- What case C leaves in accumulator 0. -/
def sout0_C_0 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)

/-- Case C's pieces for accumulator 1 cover it (every store goes through its whole rectangle). -/
theorem scover0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S1024x128.size (by sl_kernel_rfl) y

/-- What case C leaves in accumulator 1. -/
def sout0_C_1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-- Case C's one store into the result's buffer covers it. -/
theorem cover0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) (y : S1024x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y

/-- What case C leaves in the result's buffer. -/
def out0_C_6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

/-- Where the result window is idle nothing reads this component. -/
def idle6 : Vec F S1024x1 .f32 := VO0_6.read (Elt F) VO0_6.junk

/-! ## The accumulation over the grid points -/

/-- What the result's buffer and the two accumulators hold after the body at position `n`: the case the closed forms
    select there, run on the point's blocks, cases B and C over what position `n - 1` left in the accumulators. -/
def outsAt0 (c : Dev nD) : (n : ℕ) → n < cfg0.N → Vec F S1024x1 .f32 × Vec F S1024x128 .f32 × Vec F S1024x128 .f32
  | 0, hn => (idle6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ 0 % 4 = 3; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => absurd ((hcond0_1 ⟨0, hn⟩).mp h) (by show ¬ 0 % 4 = 3; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (idle6, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => absurd ((hcond0_1 ⟨n + 1, hn⟩).mp h) (by show ¬ (n + 1) % 4 = 3; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => absurd ((hcond0_1 ⟨n + 1, hn⟩).mp h) (by show ¬ (n + 1) % 4 = 3; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
      else
        (idle6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (idle6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = (idle6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two accumulators at anything; afterwards
    each at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The proof data on core `c`: the arrays as the region finds them; after the body each input's buffer at its block
    and the result's at `outsAt0`; the invariant `PhiS`; nothing owed.  The array read through two windows is held
    at one half of the full share by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the closed forms say which case the point is in; that
    case's run applies; the invariant hands over the accumulators at what the point before left (at anything at the
    first point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · have h1 : ¬t.val % 4 = 3 := by omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, scopedRest0_owns]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ )
          unfold owns; iexists _; isplitr
          swap; · iexact HS1
          ipureintro; exact View.read_writes_of_cover _ _ _ _ _ (scover0_A_1 c _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ )
          unfold owns; iexists _; isplitr
          swap; · iexact HS1
          ipureintro; exact View.read_writes_of_cover _ _ _ _ _ (scover0_A_1 c _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold sout0_C_0 sout0_C_1 out0_C_6; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ )
          unfold owns; iexists _; isplitr
          swap; · iexact HS1
          ipureintro; exact View.read_writes_of_cover _ _ _ _ _ (scover0_C_1 c _ _ _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ )

    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ )
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ )
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.IdealShared.lean ====
/-
  One array read through two windows.

  Windows 0 and 1 of the kernel's pipeline both read the first argument array, at different blocks; the other five
  windows each have an array of their own.  The launch hands the pipeline the six distinct buffers behind the seven
  windows' arrays, each whole at the full share.  The pipeline's own account holds one points-to per window: the first
  argument array twice, at the left and at the right half of the full share, and the other arrays at the full share.
  A points-to at a share q is the same as the two points-tos at q's left and right halves, so the two accounts
  entail each other, array by array.
-/
import proofs.«170419_j50818053046377_2_alg».proof.Proof.IdealBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A window's array is a whole buffer: held at the share the pipeline keeps it at, it is the buffer's points-to at
    that share. -/
theorem arr_at (c : Dev nD) (dat : Dat τ (Elt F) Unit ℕ (UR sig nD τ) ℕ cfg0 c) (w : Fin 7) (q : PosShare TreeShare)
    (hs : dat.share w = q) (g : Buf (Elt F) ((cfg0.win w).arr.view.loc (c.tc : Thread nD τ))) :
    ((cfg0.win w).arr.view.loc (c.tc : Thread nD τ) ↦[(cfg0.win w).arr.view.set]{dat.share w} g : sProp 𝕄)
      = ((cfg0.win w).arr.view.loc (c.tc : Thread nD τ) ↦{q} g) := by
  rw [(arr_whole0 w).set_eq_univ, hs]

/-- The pipeline's account of its arrays, window by window, over the buffers behind them. -/
theorem arrays_eq_chain (c : Dev nD) (dat : Dat τ (Elt F) Unit ℕ (UR sig nD τ) ℕ cfg0 c)
    (hq0 : dat.q 0 = fullShare.left) (hq1 : dat.q 1 = fullShare.right) (hq : ∀ w : Fin 7, 2 ≤ w.val → dat.q w = fullShare)
    (G : (w : Fin cfg0.W) → Buf (Elt F) ((cfg0.win w).arr.view.loc (c.tc : Thread nD τ))) :
    (dat.arrays G : sProp 𝕄) = iprop((((c : Thread nD τ).loc main_arg0) ↦{fullShare.left} G 0) ∗ (((c : Thread nD τ).loc main_arg0) ↦{fullShare.right} G 1) ∗ (((c : Thread nD τ).loc main_v0) ↦{fullShare} G 2) ∗ (((c : Thread nD τ).loc main_v1) ↦{fullShare} G 3) ∗ (((c : Thread nD τ).loc main_v4) ↦{fullShare} G 4) ∗ (((c : Thread nD τ).loc main_v5) ↦{fullShare} G 5) ∗ (((c : Thread nD τ).loc main_v6) ↦{fullShare} G 6)) := by
  have s0 : dat.share 0 = fullShare.left := hq0
  have s1 : dat.share 1 = fullShare.right := hq1
  have s2 : dat.share 2 = fullShare := hq 2 (by decide)
  have s3 : dat.share 3 = fullShare := hq 3 (by decide)
  have s4 : dat.share 4 = fullShare := hq 4 (by decide)
  have s5 : dat.share 5 = fullShare := hq 5 (by decide)
  have s6 : dat.share 6 = fullShare := rfl
  unfold Dat.arrays
  rw [bigSep_W0, arr_at c dat 0 _ s0, arr_at c dat 1 _ s1, arr_at c dat 2 _ s2, arr_at c dat 3 _ s3, arr_at c dat 4 _ s4,
    arr_at c dat 5 _ s5, arr_at c dat 6 _ s6]

/-- The six distinct buffers behind the seven windows' arrays, each whole at the full share, give the pipeline's
    account of its arrays: the first argument array's points-to is split into its left and right halves for windows 0
    and 1. -/
theorem arrays_of_arrBufs (c : Dev nD) (dat : Dat τ (Elt F) Unit ℕ (UR sig nD τ) ℕ cfg0 c)
    (hq0 : dat.q 0 = fullShare.left) (hq1 : dat.q 1 = fullShare.right) (hq : ∀ w : Fin 7, 2 ≤ w.val → dat.q w = fullShare)
    (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (Pipeline.arrBufs spec0 c W : sProp 𝕄) ⊢ dat.arrays G := by
  rw [arrays_eq_chain c dat hq0 hq1 hq G, hG 0, hG 1, hG 2, hG 3, hG 4, hG 5, hG 6]
  unfold Pipeline.arrBufs
  rw [bigSep_eq_bigSepL_of_eq [main_arg0, main_v0, main_v1, main_v4, main_v5, main_v6] (by decide) (by decide)]
  show iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
    ⊢ iprop((((c : Thread nD τ).loc main_arg0) ↦{fullShare.left} W main_arg0) ∗ (((c : Thread nD τ).loc main_arg0) ↦{fullShare.right} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
  exact (sep_mono_left (pointsTo_share (PosShare.mem_left_op_right fullShare)).1).trans sep_assoc.1

/-- Conversely the pipeline's account of its arrays gives back the six distinct buffers, each whole at the full share:
    windows 0 and 1 hold the first argument array at the same contents, at the left and the right half of the full
    share, and the two halves join. -/
theorem arrBufs_of_arrays (c : Dev nD) (dat : Dat τ (Elt F) Unit ℕ (UR sig nD τ) ℕ cfg0 c)
    (hq0 : dat.q 0 = fullShare.left) (hq1 : dat.q 1 = fullShare.right) (hq : ∀ w : Fin 7, 2 ≤ w.val → dat.q w = fullShare)
    (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (dat.arrays G : sProp 𝕄) ⊢ Pipeline.arrBufs spec0 c W := by
  rw [arrays_eq_chain c dat hq0 hq1 hq G, hG 0, hG 1, hG 2, hG 3, hG 4, hG 5, hG 6]
  unfold Pipeline.arrBufs
  rw [bigSep_eq_bigSepL_of_eq [main_arg0, main_v0, main_v1, main_v4, main_v5, main_v6] (by decide) (by decide)]
  show iprop((((c : Thread nD τ).loc main_arg0) ↦{fullShare.left} W main_arg0) ∗ (((c : Thread nD τ).loc main_arg0) ↦{fullShare.right} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
    ⊢ iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v4) ↦{fullShare} W main_v4) ∗ (((c : Thread nD τ).loc main_v5) ↦{fullShare} W main_v5) ∗ (((c : Thread nD τ).loc main_v6) ↦{fullShare} W main_v6))
  exact sep_assoc.2.trans (sep_mono_left (pointsTo_share (PosShare.mem_left_op_right fullShare)).2)

end Cert.KernelIdeal.Frm

end
-- ==== Proof.IdealLaunch.lean ====
/-
  The launch: @main as three segments — the seven host operations, the region, the two host operations — and the run.

  Between segments the core holds every unscoped buffer whole at a valuation: the launch contents, then those after the
  seven operations, then those with the region's result array in place, then those after the last two operations.  At
  the region's entry the array both the row-tile window and the column-tile window read is dealt to them in two
  halves; at its exit the halves, which still hold the same contents, are joined again.  The two accumulators are the
  kernel's own scoped buffers: they enter the region's invariant at anything and are forgotten at its exit.
-/
import proofs.«170419_j50818053046377_2_alg».proof.Proof.IdealFrame
import proofs.«170419_j50818053046377_2_alg».proof.Proof.IdealShared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
/-- No core owes another anything: no level is assigned. -/
abbrev Lz : GSem nD τ sig → Finset Unit := fun _ => ∅
abbrev lvz : GSem nD τ sig → Unit → ℕ := fun _ _ => 0
abbrev adm : (p : Fin 1) → (pcfgs (F := F) p).Adm := fun p => (cfgs p).toPCfg_adm
/-- What rides beside the buffers: the core owing nothing. -/
abbrev Rw (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- Core `c`'s buffers at launch, as a valuation. -/
abbrev Wl (c : Dev nD) : Valuation τ sig (Elt F) := fun b => m (c, b)

/-- The result array after the region. -/
abbrev fin6 (c : Dev nD) : Buf (Elt F) ((c : Thread nD τ).loc main_v6) := (dats m 0 c).arrAt 6 cfg0.N

/-- Core `c`'s buffers when the region is left: as it was entered, with the result array in place. -/
def We (c : Dev nD) : Valuation τ sig (Elt F) := Function.update (V0 m c) (Proc.devRef .tc main_v6) (fin6 m c)

theorem We_v6 (c : Dev nD) : We m c (Proc.devRef .tc main_v6) = fin6 m c := Function.update_self _ _ _
theorem We_ne (c : Dev nD) (b : Ref sig .tc) (h : b ≠ main_v6) : We m c (Proc.devRef .tc b) = V m c b :=
  Function.update_of_ne (fun e => h (Proc.devRef_injective _ e)) _ _

/-- Each input window holds half of its array where two windows read one, all of it elsewhere. -/
theorem q_rest (c : Dev nD) : ∀ w : Fin 7, 2 ≤ w.val → (dats m 0 c).q w = fullShare := by
  intro w hw
  match w, hw with
  | ⟨0, _⟩, hw => simp at hw
  | ⟨1, _⟩, hw => simp at hw
  | ⟨2, _⟩, _ => rfl
  | ⟨3, _⟩, _ => rfl
  | ⟨4, _⟩, _ => rfl
  | ⟨5, _⟩, _ => rfl
  | ⟨6, _⟩, _ => rfl

/-- The arrays after the region are the exit valuation's: an input's array is never written, the result's is `fin6`. -/
theorem We_arr (c : Dev nD) (w : Fin cfg0.W) : (dats m 0 c).arrAt w cfg0.N = We m c (Proc.devRef .tc (Pipeline.arrRef spec0 w)) := by
  match w with
  | ⟨0, _⟩ => exact ((dats m 0 c).arrAt_in 0 rfl _).trans ((A_eq m c 0).trans (We_ne m c main_arg0 (by decide)).symm)
  | ⟨1, _⟩ => exact ((dats m 0 c).arrAt_in 1 rfl _).trans ((A_eq m c 1).trans (We_ne m c main_arg0 (by decide)).symm)
  | ⟨2, _⟩ => exact ((dats m 0 c).arrAt_in 2 rfl _).trans ((A_eq m c 2).trans (We_ne m c main_v0 (by decide)).symm)
  | ⟨3, _⟩ => exact ((dats m 0 c).arrAt_in 3 rfl _).trans ((A_eq m c 3).trans (We_ne m c main_v1 (by decide)).symm)
  | ⟨4, _⟩ => exact ((dats m 0 c).arrAt_in 4 rfl _).trans ((A_eq m c 4).trans (We_ne m c main_v4 (by decide)).symm)
  | ⟨5, _⟩ => exact ((dats m 0 c).arrAt_in 5 rfl _).trans ((A_eq m c 5).trans (We_ne m c main_v5 (by decide)).symm)
  | ⟨6, _⟩ => exact (We_v6 m c).symm

/-- The buffers that bypass the region are the same under the entry and the exit valuation. -/
theorem rest_eq (c : Dev nD) :
    (Pipeline.unscopedRest (Ix := Unit) (Name := ℕ) (U := UR sig nD τ) (Lvl := ℕ) spec0 c (fun b => We m c (Proc.devRef .tc b)) : sProp 𝕄)
      = Pipeline.unscopedRest spec0 c (V m c) := by
  rw [unscopedRest0_eq, unscopedRest0_eq]
  rw [We_ne m c main_arg1 (by decide), We_ne m c main_v2 (by decide), We_ne m c main_cst (by decide), We_ne m c main_v3 (by decide), We_ne m c main_cst_0 (by decide), We_ne m c main_v7 (by decide)]

/-- THE FIRST HOST SEGMENT: the seven operations over the unscoped buffers. -/
def seg0 : Pipeline.HostSeg (Name := ℕ) (U := UR sig nD τ) (pcfgs (F := F)) defs₀ Variants.none Lz lvz :=
  Pipeline.HostSeg.ofOps _ _ _ _ _ (Pipeline.ucRefs τ sig) hostOps0 (fun op h => Pipeline.sub_ucRefs op ((List.forall_iff_forall_mem.mp hostOps0_sub) op h))
    hostOps0_fresh (Wl m) Rw

/-- THE LAST HOST SEGMENT: the two operations, from the exit valuation. -/
def seg1 : Pipeline.HostSeg (Name := ℕ) (U := UR sig nD τ) (pcfgs (F := F)) defs₀ Variants.none Lz lvz :=
  Pipeline.HostSeg.ofOps _ _ _ _ _ (Pipeline.ucRefs τ sig) hostOps1 (fun op h => Pipeline.sub_ucRefs op ((List.forall_iff_forall_mem.mp hostOps1_sub) op h))
    hostOps1_fresh (We m) Rw

set_option backward.isDefEq.respectTransparency.types false in
/-- THE REGION. -/
def reg0 : Pipeline.RegionSeg (pcfgs (F := F)) adm (dats m) () defs₀ Variants.none Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (StableHlo.after hostOps0 (Wl m c)) ∗ Rw c)
  post c := iprop(StableHlo.held (c : Thread nD τ) (Pipeline.ucRefs τ sig) (We m c) ∗ Rw c)
  X _ := iprop(emp)
  Y _ := iprop(emp)
  Z c := Pipeline.unscopedRest spec0 c (V m c)
  hentry c := by
    rw [show StableHlo.held (c : Thread nD τ) (Pipeline.ucRefs τ sig) (StableHlo.after hostOps0 (Wl m c)) = unscopedBufs c (V m c) from (Pipeline.unscopedBufs_held c _).symm,
      Pipeline.unscopedBufs_split₀ cfgs 0 winFacts₀0.arr_unscoped c (V m c)]
    iintro ⟨⟨⟨Harr, Hrest⟩, HO⟩, -, -⟩
    imodintro
    isplitl [Harr]
    · iapply (arrays_of_arrBufs c (dats m 0 c) rfl rfl (q_rest m c) (V m c) _ (fun w => A_eq m c w)) $$ Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_0; omega), scopedRest0_owns]
    iintro ⟨H0, H1⟩
    isplitr; · iempintro
    isplitr; · iempintro
    isplitl [H0]; · iexists _; iexact H0
    iexists _; iexact H1
  hexit c := by
    rw [← Pipeline.unscopedBufs_held c (We m c), Pipeline.unscopedBufs_split₀ cfgs 0 winFacts₀0.arr_unscoped c _, rest_eq m c]
    iintro ⟨Ha, HO, -, HZ⟩
    imodintro
    isplitr [HO]
    · isplitl [Ha]
      · iapply (arrBufs_of_arrays c (dats m 0 c) rfl rfl (q_rest m c) (fun b => We m c (Proc.devRef .tc b)) _ (fun w => We_arr m c w)) $$ Ha
      · iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none Lz lvz) := [.host (seg0 m), .region (reg0 m), .host (seg1 m)]

/-- What every final state holds: each unscoped buffer at what the last two operations leave from the exit valuation. -/
def QC : PUnit × MemSt nD τ sig (Elt F) → Prop := fun r =>
  ∀ c : Dev nD, ∀ b ∈ Pipeline.ucRefs τ sig, r.2.mem ((c : Thread nD τ).1, b) = StableHlo.after hostOps1 (We m c) b

set_option backward.isDefEq.respectTransparency.types false in
/-- At the compiled mesh, for any float values, from any memory with zero counters: every weakly fair execution of
    @main terminates, and every final state has every unscoped buffer at the computed contents. -/
theorem run_main : θ_run defs (onTc (τ := τ) (main (F := F))) (s₀ m ρ) (QC m) :=
  Pipeline.θ_run_regions_kit (pcfgs (F := F)) adm (dats m) () cellOf_inj EP defs₀ Variants.none Lz lvz m ρ main (segs m)
    (fun c Q => by rw [main_segs adm (dats m) () Variants.none Lz lvz (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ Rw c))
    (Tₙ := fun c => StableHlo.held (c : Thread nD τ) (Pipeline.ucRefs τ sig) (StableHlo.after hostOps1 (We m c)))
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wl m c) from Pipeline.unscopedBufs_held c (Wl m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = StableHlo.after hostOps1 (We m c) b)
    (hfin := fun c s' => by
      unfold StableHlo.held
      iintro ⟨Hh, HSI⟩
      ihave Hr := (pointsTo_read_all (Pipeline.ucRefs τ sig) (fun b => ((c : Thread nD τ).1, b)) (StableHlo.after hostOps1 (We m c)) s') $$ [Hh HSI]
      · isplitl [Hh] <;> iassumption
      icases Hr with ⟨%h, HSI⟩
      imodintro
      isplitr; · ipureintro; exact h
      iexact HSI)
    (hQ := fun _ h => h)

end Cert.KernelIdeal.Frm

end
-- ==== Proof.IdealClaim.lean ====
/-
  The frame, read off the run: neither argument array is written by any host operation, and as arrays of input
  windows the region leaves them as it found them; so every final state holds both as launched.  The result, the
  scalar the last host operation writes, is that operation's value at the exit valuation.
-/
import proofs.«170419_j50818053046377_2_alg».proof.Proof.IdealLaunch

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that none of the seven operations before the region writes. -/
theorem not_written0 (b : Ref sig .tc) (h0 : b ≠ main_v0) (h1 : b ≠ main_v1) (h2 : b ≠ main_v2) (h3 : b ≠ main_cst) (h4 : b ≠ main_v3)
    (h5 : b ≠ main_v4) (h6 : b ≠ main_v5) : ∀ op ∈ (hostOps0 (F := F)), Proc.devRef .tc b ∉ op.writes := by
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer that neither of the two operations after the region writes. -/
theorem not_written1 (b : Ref sig .tc) (h0 : b ≠ main_cst_0) (h1 : b ≠ main_v7) : ∀ op ∈ (hostOps1 (F := F)), Proc.devRef .tc b ∉ op.writes := by
  intro op hop
  simp only [List.mem_cons, List.mem_nil_iff, or_false] at hop
  rcases hop with rfl | rfl <;>
    simp only [StableHlo.unary_writes, StableHlo.binary_writes, StableHlo.nullary_writes, StableHlo.reshape_writes, Finset.mem_singleton] <;>
    exact StableHlo.devRef_ne_of_ne ‹_›

/-- An unscoped reference is among the buffers the host operations run within. -/
theorem mem_ucRefs (b : Ref sig .tc) (h : (Proc.devRef (τ := τ) .tc b).isScoped = false) : Proc.devRef .tc b ∈ Pipeline.ucRefs τ sig := by
  unfold Pipeline.ucRefs StableHlo.tcRefs
  exact Finset.mem_filter.mpr ⟨Finset.mem_map.mpr ⟨b, Finset.mem_univ _, rfl⟩, by rw [h]; exact Bool.false_ne_true⟩

/-- An argument reaches the end as launched. -/
theorem kept_arg0 (c : Dev nD) : StableHlo.after hostOps1 (We m c) (Proc.devRef .tc main_arg0) = m ((c : Thread nD τ).loc main_arg0) :=
  (StableHlo.after_of_forall_not_mem hostOps1 _ (not_written1 main_arg0 (by decide) (by decide))).trans
    ((We_ne m c main_arg0 (by decide)).trans (StableHlo.after_of_forall_not_mem hostOps0 _ (not_written0 main_arg0 (by decide) (by decide) (by decide) (by decide) (by decide) (by decide) (by decide))))
theorem kept_arg1 (c : Dev nD) : StableHlo.after hostOps1 (We m c) (Proc.devRef .tc main_arg1) = m ((c : Thread nD τ).loc main_arg1) :=
  (StableHlo.after_of_forall_not_mem hostOps1 _ (not_written1 main_arg1 (by decide) (by decide))).trans
    ((We_ne m c main_arg1 (by decide)).trans (StableHlo.after_of_forall_not_mem hostOps0 _ (not_written0 main_arg1 (by decide) (by decide) (by decide) (by decide) (by decide) (by decide) (by decide))))

/-- THE RUN, read at the result and the two arguments. -/
theorem run_result : θ_run defs (onTc (τ := τ) (main (F := F))) ⟨m, fun _ => 0, ρ⟩ (fun r => ∀ c : Dev nD,
      r.2.mem ((c.tc : Thread nD τ).loc main_v7) = StableHlo.after hostOps1 (We m c) (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_ucRefs main_v7 (by decide)),
      (h c _ (mem_ucRefs main_arg0 (by decide))).trans (kept_arg0 m c), (h c _ (mem_ucRefs main_arg1 (by decide))).trans (kept_arg1 m c)⟩) (run_main m ρ)

/-- THE FRAME: the program runs to its end from any memory and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.KernelIdeal.Frm

end
-- ==== Proof.Spec.lean ====
/-
  The hard-triplet loss as one function of the two argument arrays, over the extended reals.

  For an [8192, 128] array x and 8192 labels t:
    sq r        = Σ_k x(r,k)²                                  (a row's squared norm)
    gram r c    = Σ_k x(r,k)·x(c,k)                            (the Gram matrix)
    dist r c    = max (sq r + sq c − 2·gram r c) 0             (clamped squared distance)
    pos r c     = dist r c  where the labels agree, −1e30 elsewhere
    neg r c     = +1e30     where the labels agree, dist r c elsewhere
    hardPos r   = sup_c pos r c        hardNeg r = inf_c neg r c
    rowLoss r   = max (hardPos r − hardNeg r + 1/2) 0
    loss        = Σ_r rowLoss r
  The two finite stand-ins ±1e30 are the f32 patterns 0x7149F2CA and 0xF149F2CA, kept as patterns: both programs
  carry the same words, so they are never evaluated except for their sign.

  The column axis is also cut the way a tiled evaluation walks it: column (j, g, l) = j·2048 + g·128 + l for
  j < 4, g < 16, l < 128, and row (i, p) = i·1024 + p for i < 8, p < 1024.
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx
open scoped BigOperators

/-- The data: an [8192, 128] array of extended reals and 8192 label words. -/
abbrev Pts : Type := (⟨2, ![8192, 128]⟩ : Shape).Idx → EReal
abbrev Lbl : Type := (⟨1, ![8192]⟩ : Shape).Idx → BitVec 32

/-- The finite stand-ins for −∞ and +∞, the margin 1/2 and the factor 2, as the f32 patterns both programs carry. -/
def negBig : EReal := Ideal.ofBits .f32 0xF149F2CA#32
def posBig : EReal := Ideal.ofBits .f32 0x7149F2CA#32
def half : EReal := Ideal.ofBits .f32 0x3F000000#32
def two : EReal := Ideal.ofBits .f32 0x40000000#32

/-- A row's squared norm. -/
def sq (x : Pts) (r : Fin 8192) : EReal := 0 + ∑ k : Fin 128, x (ix2 r k) * x (ix2 r k)
/-- The Gram matrix. -/
def gram (x : Pts) (r c : Fin 8192) : EReal := ∑ k : Fin 128, x (ix2 r k) * x (ix2 c k)
/-- The clamped squared distance between rows r and c. -/
def dist (x : Pts) (r c : Fin 8192) : EReal := max (sq x r + sq x c - two * gram x r c) 0
/-- Whether rows r and c carry the same label, as the comparison's one-bit word. -/
def same (t : Lbl) (r c : Fin 8192) : BitVec 1 := IntOp.cmpi .eq (t (ix1 r)) (t (ix1 c))
/-- The distance where the labels agree, −1e30 elsewhere. -/
def pos (x : Pts) (t : Lbl) (r c : Fin 8192) : EReal := Scalar.select (same t r c) (dist x r c) negBig
/-- +1e30 where the labels agree, the distance elsewhere. -/
def neg (x : Pts) (t : Lbl) (r c : Fin 8192) : EReal := Scalar.select (same t r c) posBig (dist x r c)
/-- The hardest positive and the hardest negative of row r. -/
def hardPos (x : Pts) (t : Lbl) (r : Fin 8192) : EReal := ⨆ c : Fin 8192, pos x t r c
def hardNeg (x : Pts) (t : Lbl) (r : Fin 8192) : EReal := ⨅ c : Fin 8192, neg x t r c
/-- One row's hinge loss. -/
def rowLoss (x : Pts) (t : Lbl) (r : Fin 8192) : EReal := max (hardPos x t r - hardNeg x t r + half) 0
/-- The loss. -/
def loss (x : Pts) (t : Lbl) : EReal := 0 + ∑ r : Fin 8192, rowLoss x t r

/-! ## The tiled walk of the column axis -/

/-- Row p of row tile i. -/
def row (i : Fin 8) (p : Fin 1024) : Fin 8192 := ⟨i.val * 1024 + p.val, by omega⟩
/-- Lane l of group g inside a column tile of 2048. -/
def lane (g : Fin 16) (l : Fin 128) : Fin 2048 := ⟨g.val * 128 + l.val, by omega⟩
/-- Column c of column tile j. -/
def col (j : Fin 4) (c : Fin 2048) : Fin 8192 := ⟨j.val * 2048 + c.val, by omega⟩

/-- What one column tile contributes to lane l of row p of row tile i: the maximum (minimum) over the tile's 16 groups. -/
def tileMax (x : Pts) (t : Lbl) (i : Fin 8) (j : Fin 4) (p : Fin 1024) (l : Fin 128) : EReal :=
  ⨆ g : Fin 16, pos x t (row i p) (col j (lane g l))
def tileMin (x : Pts) (t : Lbl) (i : Fin 8) (j : Fin 4) (p : Fin 1024) (l : Fin 128) : EReal :=
  ⨅ g : Fin 16, neg x t (row i p) (col j (lane g l))

/-- The running lane-wise maximum after column tiles 0 … j of row tile i, started from −1e30. -/
def accMax (x : Pts) (t : Lbl) (i : Fin 8) (j : Fin 4) (p : Fin 1024) (l : Fin 128) : EReal :=
  negBig ⊔ ⨆ j' : Fin 4, ⨆ _ : j'.val ≤ j.val, tileMax x t i j' p l
/-- The running lane-wise minimum after column tiles 0 … j of row tile i, started from +1e30. -/
def accMin (x : Pts) (t : Lbl) (i : Fin 8) (j : Fin 4) (p : Fin 1024) (l : Fin 128) : EReal :=
  posBig ⊓ ⨅ j' : Fin 4, ⨅ _ : j'.val ≤ j.val, tileMin x t i j' p l

end Cert.Triplet

end
-- ==== Proof.IdealFinal.lean ====
/-
  What the result array holds after the run.

  The result window's array is an [8192, 1] column cut into eight blocks of 1024 rows; the block of row tile i is
  written back once, at the last column tile of that row tile, the grid point 4·i + 3, with what the body left in the
  window's buffer there.  Row r lies in block r / 1024 at offset r % 1024, so the eight write-backs tile the column:
  afterwards entry (r, 0) is entry (r % 1024, 0) of what point 4·(r / 1024) + 3 left.  The six input windows' arrays are
  never written: they end as the region found them.
-/
import proofs.«170419_j50818053046377_2_alg».proof.Proof.IdealFrame
import proofs.«170419_j50818053046377_2_alg».proof.Proof.Spec
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result window over the grid -/

/-- The result window's block index at point t is (t / 4, 0). -/
theorem idx6 : ∀ t : Fin cfg0.N, win0_6.index t (0 : Fin 2) = t.val / 4 ∧ win0_6.index t (1 : Fin 2) = 0 :=
  (by decide +kernel : ∀ t : Fin grid0.N, _)

/-- The last point of row tile r / 1024 is a point of the grid. -/
theorem lastPt_lt (r : ℕ) (hr : r < 8192) : 4 * (r / 1024) + 3 < cfg0.N := by
  rw [show cfg0.N = 32 from N_0]; omega

/-- What the points leave does not depend on how the point's number is written. -/
theorem outsAt0_congr (c : Dev nD) (n n' : ℕ) (hn : n < cfg0.N) (hn' : n' < cfg0.N) (e : n = n') :
    outsAt0 m c n hn = outsAt0 m c n' hn' := by
  subst e; rfl

/-- The column the result array ends holding: at (r, u) the entry (r % 1024, u) of what the last point of row tile
    r / 1024 left in the result's buffer. -/
def outCol (c : Dev nD) : Buf (Elt F) ((cfg0.win 6).arr.view.loc (c.tc : Thread nD τ)) :=
  fun (i : S8192x1.Idx) => (outsAt0 m c (4 * ((i 0).val / 1024) + 3) (lastPt_lt _ (i 0).isLt)).1
    (ix2 (⟨(i 0).val % 1024, Nat.mod_lt _ (by decide)⟩ : Fin 1024) (⟨(i 1).val, (i 1).isLt⟩ : Fin 1))

/-- The column at an index of the block of a point that writes back: that point's result, at the index inside the
    block. -/
theorem outCol_at (c : Dev nD) (t : Fin cfg0.N) (ht : t.val % 4 = 3) (i : S8192x1.Idx) (j : S1024x1.Idx)
    (h0 : (i 0).val = t.val / 4 * 1024 + (j 0).val) (h1 : (i 1).val = (j 1).val) :
    (outCol m c : S8192x1.Idx → Elt F .f32) i = (outsAt0 m c t.val t.isLt).1 j := by
  have hj : (j 0).val < 1024 := (j 0).isLt
  have e : 4 * ((i 0).val / 1024) + 3 = t.val := by omega
  show (outsAt0 m c (4 * ((i 0).val / 1024) + 3) (lastPt_lt _ (i 0).isLt)).1
    (ix2 (⟨(i 0).val % 1024, Nat.mod_lt _ (by decide)⟩ : Fin 1024) (⟨(i 1).val, (i 1).isLt⟩ : Fin 1)) = _
  rw [outsAt0_congr m c _ t.val _ t.isLt e]
  refine congrArg (outsAt0 m c t.val t.isLt).1 (funext fun a => Fin.ext ?_)
  match a with
  | ⟨0, _⟩ => show (i 0).val % 1024 = (j 0).val; omega
  | ⟨1, _⟩ => exact h1

/-- What a point that writes back writes is its block of the column. -/
theorem flushed6_eq (c : Dev nD) (t : Fin cfg0.N) (hf : (cfg0.win 6).flush t = true) :
    (dats m 0 c).flushed 6 t = ((cfg0.win 6).blk t).view.read (Elt F) (outCol m c) := by
  have ht : t.val % 4 = 3 := (flush0_6 t).mp hf
  obtain ⟨e0, e1⟩ := idx6 t
  show (cfg0.win 6).cut (grid0.coords t) ((dats m 0 c).after 6 t) = _
  rw [after0_6]
  funext j
  show (outsAt0 m c t.val t.isLt).1 j = (outCol m c : S8192x1.Idx → Elt F .f32) (((cfg0.win 6).blk t).view.emb j)
  refine (outCol_at m c t ht _ j ?_ ?_).symm
  · show win0_6.index t (0 : Fin 2) * 1024 + 1 * (j 0).val = t.val / 4 * 1024 + (j 0).val
    rw [e0]; omega
  · show win0_6.index t (1 : Fin 2) * 1 + 1 * (j 1).val = (j 1).val
    rw [e1]; omega

/-- An index of the array is in point t's block iff each coordinate is in the block's range on its axis. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v6).slice (win0_6.rect t)).set ↔ _
  rw [View.set_slice_whole, Rect.mem_set_unit]
  exact Iff.rfl

/-- Every row is in the block of a point that writes back: the last point of its row tile. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  refine ⟨⟨4 * ((i 0).val / 1024) + 3, lastPt_lt _ hi0⟩, (flush0_6 _).mpr (by show (4 * ((i 0).val / 1024) + 3) % 4 = 3; omega), ?_⟩
  obtain ⟨e0, e1⟩ := idx6 ⟨4 * ((i 0).val / 1024) + 3, lastPt_lt _ hi0⟩
  have e0' : win0_6.index ⟨4 * ((i 0).val / 1024) + 3, lastPt_lt _ hi0⟩ (0 : Fin 2) = (i 0).val / 1024 := by
    rw [e0]; show (4 * ((i 0).val / 1024) + 3) / 4 = (i 0).val / 1024; omega
  rw [mem_blk6]
  intro a
  match a with
  | ⟨0, _⟩ =>
    show win0_6.index ⟨4 * ((i 0).val / 1024) + 3, lastPt_lt _ hi0⟩ (0 : Fin 2) * 1024 ≤ (i 0).val ∧ (i 0).val < win0_6.index ⟨4 * ((i 0).val / 1024) + 3, lastPt_lt _ hi0⟩ (0 : Fin 2) * 1024 + 1024
    rw [e0']; omega
  | ⟨1, _⟩ =>
    show win0_6.index ⟨4 * ((i 0).val / 1024) + 3, lastPt_lt _ hi0⟩ (1 : Fin 2) * 1 ≤ (i 1).val ∧ (i 1).val < win0_6.index ⟨4 * ((i 0).val / 1024) + 3, lastPt_lt _ hi0⟩ (1 : Fin 2) * 1 + 1
    rw [e1]; omega

/-- The result array after the run is the column. -/
theorem final6 (c : Dev nD) : (dats m 0 c).arrAt 6 cfg0.N = outCol m c :=
  (dats m 0 c).arrAt_eq_of_cover 6 (outCol m c) (fun t hf => flushed6_eq m c t hf) (cover6)

/-- The column at row p of row tile i: entry (p, u) of what the tile's last point left. -/
theorem outCol_apply (c : Dev nD) (i : Fin 8) (p : Fin 1024) (u : Fin 1) (h : 4 * i.val + 3 < cfg0.N) :
    (outCol m c : S8192x1.Idx → Elt F .f32) (ix2 (Cert.Triplet.row i p) u) = (outsAt0 m c (4 * i.val + 3) h).1 (ix2 p u) := by
  refine outCol_at m c ⟨4 * i.val + 3, h⟩ (by show (4 * i.val + 3) % 4 = 3; omega) _ (ix2 p u) ?_ rfl
  show i.val * 1024 + p.val = (4 * i.val + 3) / 4 * 1024 + p.val
  omega

/-- An input window's array is never written: it ends as the region found it. -/
theorem final_in (c : Dev nD) (w : Fin cfg0.W) (hw : w.val < 6) : (dats m 0 c).arrAt w cfg0.N = V m c (Pipeline.arrRef spec0 w) :=
  ((dats m 0 c).arrAt_in w ((by decide : ∀ w : Fin 7, w.val < 6 → (cfg0.win w).isOut = false) w hw) cfg0.N).trans (A_eq m c w)

end Cert.KernelIdeal.Frm

end
-- ==== Proof.LibRowStat.lean ====
/-
  A per-row statistic of an [n0, n1] array, on the host and as a column.

  A host program takes the maximum of each row of a rank-2 array by a reduce with a maximum body over axis 1, from its
  initial value: over the extended reals that is the fold of `max` over the row's entries.  A kernel keeps such a
  statistic, a vector of n0 entries, as an [n0, 1] column; read at (p, 0) the column is the vector's entry p.
-/
import Idealize.ShloMosaic.Lib.Pipeline.Value
import Idealize.ShloMosaic.Lib.ValueIdx
import Idealize.ShloMosaic.PureOps.Reduce
import Idealize.ShloMosaic.PureOps.Ideal.Laws

namespace Cert.RowStat

open Idealize.ShloMosaic Idealize.ShloMosaic.ValueIdx

/-- A vector of a entries set up as an [a, 1] column, read at (p, 0): the vector's entry p. -/
theorem column_cast_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- Over the extended reals, the host's reduce with a maximum body over the last axis of an [n0, n1] array, read at
    row p, is the fold of `max` from the initial value over the n1 entries of that row. -/
theorem hostRowMax2_apply {n0 n1 : ℕ} {φ : FTy} {u : Shape} (x : FVec Ideal ⟨2, ![n0, n1]⟩ φ) (init : u.Idx → Ideal φ)
    (h' : (⟨2, ![n0, n1]⟩ : Shape).ReducesTo [1] ⟨1, ![n0]⟩)
    (h : (⟨2, ![n0, n1]⟩ : Shape).Reduces [1] ⟨1, ![n0]⟩) (hu : 0 < u.numel) (p : Fin n0) :
    Host.reduce FloatOps.maximumf x init h' hu (ix1 p)
      = (Finset.univ : Finset (Fin n1)).fold max (init (Shape.Idx.first hu)) (fun k => x (ix2 p k)) := by
  refine (Host.reduce_eq_fold_single FloatOps.maximumf x init h' h hu (ix1 p)).trans ?_
  have hf : (x ∘ h.lift (ix1 p)) = fun k : Fin n1 => x (ix2 p k) := funext fun (k : Fin n1) => congrArg x (by
    funext c
    apply Fin.ext
    match c with
    | ⟨0, _⟩ => rfl
    | ⟨1, _⟩ => rfl)
  exact congrArg (fun f => Finset.fold max (init (Shape.Idx.first hu)) f (Finset.univ : Finset (Fin n1))) hf

end Cert.RowStat
-- ==== Proof.HostOps.lean ====
/-
  The host operations of the tiled program, read at an index.

  Before the region the host sets the labels up as an [8192, 1] column and as a [1, 8192] row, squares the points
  entry by entry, sums each row of the squares from 0, and sets those 8192 sums up as a column and as a row.  Read at
  an index, the label column at (r, 0) and the label row at (0, r) are label r, and the norm column at (r, 0) and the
  norm row at (0, r) are the squared norm of row r.  The two arguments themselves are as they were handed in.
  After the region the host adds up, from 0, every entry of the region's [8192, 1] result.
-/
import proofs.«170419_j50818053046377_2_alg».proof.Proof.IdealBase
import proofs.«170419_j50818053046377_2_alg».proof.Proof.Spec
import proofs.«170419_j50818053046377_2_alg».proof.Proof.LibRowStat

set_option maxRecDepth 16384

noncomputable section

namespace Cert.KernelIdeal.Val

open Cert.KernelIdeal Cert.KernelIdeal.Gen Cert.KernelIdeal.Frm Cert.Triplet
open Idealize.ShloMosaic Idealize.ShloMosaic.ValueIdx Idealize.ShloMosaic.TcCoe
open scoped BigOperators

/-! ## Layout and sums at an index -/

/-- A vector of a entries set up as a [1, a] row, read at (0, q): the vector's entry q. -/
theorem row_cast_apply {α : Type} {a : ℕ} (v : (⟨1, ![a]⟩ : Shape).Idx → α) (h : (⟨1, ![a]⟩ : Shape).ShapeCasts ⟨2, ![1, a]⟩)
    (u : Fin 1) (q : Fin a) : shapeCast ⟨2, ![1, a]⟩ v h (ix2 u q) = v (ix1 q) :=
  shapeCast_apply v h _ _ (by
    have hu : u.val = 0 := by omega
    rw [Shape.rowMajor_val_one, Shape.rowMajor_val_two]
    show q.val = u.val * a + q.val
    rw [hu, Nat.zero_mul, Nat.zero_add])

/-- Over the extended reals the host's sum, from the zero pattern, along the rows of an [8192, 128] array, read at
    row r, is 0 plus the sum of that row's 128 entries. -/
theorem rowSum_apply (y : FVec Ideal S8192x128 .f32) (r : Fin 8192) :
    Host.reduceAdd (F := Ideal) y (constant (F := Ideal) S_ .f32 0x00000000#32) reducesTo_S8192x128_S8192_d1 h_S_ (ix1 r)
      = 0 + ∑ k : Fin 128, y (ix2 r k) := by
  simp only [Host.reduceAdd, Ideal.hostReduceAdd_def]
  rw [Ideal.hostReduceAdd_single reducesTo_S8192x128_S8192_d1 (by decide)]
  refine congrArg₂ (· + ·) ?_ (Finset.sum_congr rfl fun k _ => ?_)
  · exact Ideal.ofBits_zero_f32
  · exact congrArg y (funext fun a => Fin.ext (by match a with | ⟨0, _⟩ => rfl | ⟨1, _⟩ => rfl))

/-- Over the extended reals the host's sum, from the zero pattern, of a whole [8192, 1] array is 0 plus the sum of
    its 8192 entries. -/
theorem totalSum_apply (y : FVec Ideal S8192x1 .f32) (j : S_.Idx) :
    Host.reduceAdd (F := Ideal) y (constant (F := Ideal) S_ .f32 0x00000000#32) reducesTo_S8192x1_S_d0_1 h_S_ j
      = 0 + ∑ r : Fin 8192, y (ix2 r 0) := by
  simp only [Host.reduceAdd, Ideal.hostReduceAdd_def]
  rw [Ideal.hostReduceAdd_total reducesTo_S8192x1_S_d0_1 (fun b => b.elim0)]
  refine congrArg₂ (· + ·) ?_ ?_
  · exact Ideal.ofBits_zero_f32
  · rw [sum_idx2]
    exact Finset.sum_congr rfl fun r _ => Fin.sum_univ_one _

variable (m : (ℓ : Loc nD τ sig) → Buf (Elt Ideal) ℓ) (c : Dev nD)

/-! ## The arrays the region finds -/

/-- No host operation writes the points. -/
theorem V_arg0 : V m c main_arg0 = m ((c : Thread nD τ).loc main_arg0) := by
  show StableHlo.after hostOps0 (fun b => m (c, b)) (Proc.devRef .tc main_arg0) = _
  after_results

/-- No host operation writes the labels. -/
theorem V_arg1 : V m c main_arg1 = m ((c : Thread nD τ).loc main_arg1) := by
  show StableHlo.after hostOps0 (fun b => m (c, b)) (Proc.devRef .tc main_arg1) = _
  after_results

/-- The label column at (r, 0) is label r. -/
theorem V_v0 (r : Fin 8192) (u : Fin 1) :
    (V m c main_v0 : S8192x1.Idx → BitVec 32) (ix2 r u) = (m ((c : Thread nD τ).loc main_arg1) : Lbl) (ix1 r) := by
  have e : (V m c main_v0 : S8192x1.Idx → BitVec 32)
      = shapeCast S8192x1 (m ((c : Thread nD τ).loc main_arg1) : Lbl) shapeCasts_S8192_S8192x1 := by
    show StableHlo.after hostOps0 (fun b => m (c, b)) (Proc.devRef .tc main_v0) = _
    after_results; rfl
  exact (congrFun e (ix2 r u)).trans (Cert.RowStat.column_cast_apply _ _ r u)

/-- The label row at (0, q) is label q. -/
theorem V_v1 (u : Fin 1) (q : Fin 8192) :
    (V m c main_v1 : S1x8192.Idx → BitVec 32) (ix2 u q) = (m ((c : Thread nD τ).loc main_arg1) : Lbl) (ix1 q) := by
  have e : (V m c main_v1 : S1x8192.Idx → BitVec 32)
      = shapeCast S1x8192 (m ((c : Thread nD τ).loc main_arg1) : Lbl) shapeCasts_S8192_S1x8192 := by
    show StableHlo.after hostOps0 (fun b => m (c, b)) (Proc.devRef .tc main_v1) = _
    after_results; rfl
  exact (congrFun e (ix2 u q)).trans (row_cast_apply _ _ u q)

/-- The 8192 row sums of the squares, as the host computes them. -/
theorem V_v3 (r : Fin 8192) :
    (V m c main_v3 : S8192.Idx → EReal) (ix1 r) = sq (m ((c : Thread nD τ).loc main_arg0) : Pts) r := by
  have e : (V m c main_v3 : S8192.Idx → EReal)
      = Host.reduceAdd (F := Ideal)
          (mulf (F := Ideal) (m ((c : Thread nD τ).loc main_arg0) : FVec Ideal S8192x128 .f32) (m ((c : Thread nD τ).loc main_arg0)))
          (constant (F := Ideal) S_ .f32 0x00000000#32) reducesTo_S8192x128_S8192_d1 h_S_ := by
    show StableHlo.after hostOps0 (fun b => m (c, b)) (Proc.devRef .tc main_v3) = _
    after_results
  refine (congrFun e (ix1 r)).trans ((rowSum_apply _ r).trans ?_)
  rfl

/-- The norm column at (r, 0) is the squared norm of row r. -/
theorem V_v4 (r : Fin 8192) (u : Fin 1) :
    (V m c main_v4 : S8192x1.Idx → EReal) (ix2 r u) = sq (m ((c : Thread nD τ).loc main_arg0) : Pts) r := by
  have e : (V m c main_v4 : S8192x1.Idx → EReal)
      = shapeCast S8192x1 (V m c main_v3 : S8192.Idx → EReal) shapeCasts_S8192_S8192x1 := by
    show StableHlo.after hostOps0 (fun b => m (c, b)) (Proc.devRef .tc main_v4)
      = shapeCast S8192x1 (StableHlo.after hostOps0 (fun b => m (c, b)) (Proc.devRef .tc main_v3)) shapeCasts_S8192_S8192x1
    after_results; rfl
  exact (congrFun e (ix2 r u)).trans ((Cert.RowStat.column_cast_apply _ _ r u).trans (V_v3 m c r))

/-- The norm row at (0, q) is the squared norm of row q. -/
theorem V_v5 (u : Fin 1) (q : Fin 8192) :
    (V m c main_v5 : S1x8192.Idx → EReal) (ix2 u q) = sq (m ((c : Thread nD τ).loc main_arg0) : Pts) q := by
  have e : (V m c main_v5 : S1x8192.Idx → EReal)
      = shapeCast S1x8192 (V m c main_v3 : S8192.Idx → EReal) shapeCasts_S8192_S1x8192 := by
    show StableHlo.after hostOps0 (fun b => m (c, b)) (Proc.devRef .tc main_v5)
      = shapeCast S1x8192 (StableHlo.after hostOps0 (fun b => m (c, b)) (Proc.devRef .tc main_v3)) shapeCasts_S8192_S1x8192
    after_results; rfl
  exact (congrFun e (ix2 u q)).trans ((row_cast_apply _ _ u q).trans (V_v3 m c q))

/-! ## The host's tail -/

/-- After the region the host's result is 0 plus the sum of the 8192 entries of the region's result. -/
theorem tail_sum (W : Valuation τ sig (Elt Ideal)) :
    (StableHlo.after hostOps1 W (Proc.devRef .tc main_v7) : S_.Idx → EReal)
      = fun _ => (0 : EReal) + @Finset.sum (Fin 8192) EReal _ Finset.univ (fun r => (W (Proc.devRef .tc main_v6) : S8192x1.Idx → EReal) (ix2 r 0)) := by
  have e : (StableHlo.after hostOps1 W (Proc.devRef .tc main_v7) : S_.Idx → EReal)
      = Host.reduceAdd (F := Ideal) (W (Proc.devRef .tc main_v6) : FVec Ideal S8192x1 .f32)
          (constant (F := Ideal) S_ .f32 0x00000000#32) reducesTo_S8192x1_S_d0_1 h_S_ := by
    after_results
  rw [e]
  exact funext fun j => totalSum_apply _ j

end Cert.KernelIdeal.Val
end
-- ==== Proof.Tiles.lean ====
/-
  Order-theoretic facts about the tiled walk of the column axis.

  A fold of max (min) over a whole finite index type is the supremum (infimum) joined with the initial value.
  The running lane-wise maximum after column tiles 0 … j obeys the recurrence
      acc 0 = max (−1e30) (tile 0),      acc (j+1) = max (acc j) (tile (j+1)),
  and, because every column c < 8192 is uniquely (j, g, l) with c = j·2048 + g·128 + l, the supremum over the
  128 lanes of the last running maximum is the supremum over all 8192 columns.  The stand-in −1e30 the walk starts
  from is absorbed: the diagonal column carries the same label, so its entry is a clamped distance, which is ≥ 0,
  which is ≥ −1e30.  Dually the diagonal entry of the other array is +1e30 itself, which absorbs the walk's start.
-/
import proofs.«170419_j50818053046377_2_alg».proof.Proof.Spec

noncomputable section

namespace Cert.Triplet

open Idealize.ShloMosaic Idealize.ShloMosaic.ValueIdx
open scoped BigOperators

/-! ## Folds over a whole finite type -/

/-- Folding max over every index, from b, is b joined with the supremum. -/
theorem fold_max_univ {ι : Type} [Fintype ι] (b : EReal) (f : ι → EReal) :
    (Finset.univ : Finset ι).fold max b f = b ⊔ ⨆ k, f k := by
  refine eq_of_forall_ge_iff fun c => ?_
  rw [Finset.fold_max_le, sup_le_iff, iSup_le_iff]
  simp

/-- Folding min over every index, from b, is b met with the infimum. -/
theorem fold_min_univ {ι : Type} [Fintype ι] (b : EReal) (f : ι → EReal) :
    (Finset.univ : Finset ι).fold min b f = b ⊓ ⨅ k, f k := by
  refine eq_of_forall_le_iff fun c => ?_
  rw [Finset.le_fold_min, le_inf_iff, le_iInf_iff]
  simp

/-! ## The recurrence of the running maximum and minimum -/

theorem accMax_zero (x : Pts) (t : Lbl) (i : Fin 8) (p : Fin 1024) (l : Fin 128) :
    accMax x t i 0 p l = max negBig (tileMax x t i 0 p l) := by
  show negBig ⊔ _ = negBig ⊔ _
  congr 1
  refine le_antisymm (iSup_le fun j' => iSup_le fun h => ?_) (le_iSup₂_of_le 0 le_rfl le_rfl)
  have h0 : j' = 0 := by
    apply Fin.ext
    have : j'.val ≤ 0 := h
    show j'.val = 0
    omega
  rw [h0]

theorem accMax_succ (x : Pts) (t : Lbl) (i : Fin 8) (j : Fin 4) (h : j.val + 1 < 4) (p : Fin 1024) (l : Fin 128) :
    accMax x t i ⟨j.val + 1, h⟩ p l = max (accMax x t i j p l) (tileMax x t i ⟨j.val + 1, h⟩ p l) := by
  show negBig ⊔ _ = (negBig ⊔ _) ⊔ _
  refine le_antisymm (sup_le (le_sup_of_le_left le_sup_left) (iSup_le fun j' => iSup_le fun hj => ?_))
    (sup_le (sup_le le_sup_left (le_sup_of_le_right (iSup_le fun j' => iSup_le fun hj => ?_)))
      (le_sup_of_le_right (le_iSup₂_of_le (⟨j.val + 1, h⟩ : Fin 4) le_rfl le_rfl)))
  · have hj' : j'.val ≤ j.val + 1 := hj
    by_cases hc : j'.val ≤ j.val
    · exact le_sup_of_le_left (le_sup_of_le_right (le_iSup₂_of_le j' hc le_rfl))
    · have he : j' = ⟨j.val + 1, h⟩ := Fin.ext (by show j'.val = j.val + 1; omega)
      rw [he]
      exact le_sup_right
  · have hj' : j'.val ≤ j.val := hj
    exact le_iSup₂_of_le j' (show j'.val ≤ j.val + 1 by omega) le_rfl

theorem accMin_zero (x : Pts) (t : Lbl) (i : Fin 8) (p : Fin 1024) (l : Fin 128) :
    accMin x t i 0 p l = min posBig (tileMin x t i 0 p l) := by
  show posBig ⊓ _ = posBig ⊓ _
  congr 1
  refine le_antisymm (iInf₂_le_of_le 0 le_rfl le_rfl) (le_iInf fun j' => le_iInf fun h => ?_)
  have h0 : j' = 0 := by
    apply Fin.ext
    have : j'.val ≤ 0 := h
    show j'.val = 0
    omega
  rw [h0]

theorem accMin_succ (x : Pts) (t : Lbl) (i : Fin 8) (j : Fin 4) (h : j.val + 1 < 4) (p : Fin 1024) (l : Fin 128) :
    accMin x t i ⟨j.val + 1, h⟩ p l = min (accMin x t i j p l) (tileMin x t i ⟨j.val + 1, h⟩ p l) := by
  show posBig ⊓ _ = (posBig ⊓ _) ⊓ _
  refine le_antisymm
    (le_inf (le_inf inf_le_left (inf_le_of_right_le (le_iInf fun j' => le_iInf fun hj => ?_)))
      (inf_le_of_right_le (iInf₂_le_of_le (⟨j.val + 1, h⟩ : Fin 4) le_rfl le_rfl)))
    (le_inf (inf_le_of_left_le inf_le_left) (le_iInf fun j' => le_iInf fun hj => ?_))
  · have hj' : j'.val ≤ j.val := hj
    exact iInf₂_le_of_le j' (show j'.val ≤ j.val + 1 by omega) le_rfl
  · have hj' : j'.val ≤ j.val + 1 := hj
    by_cases hc : j'.val ≤ j.val
    · exact inf_le_of_left_le (inf_le_of_right_le (iInf₂_le_of_le j' hc le_rfl))
    · have he : j' = ⟨j.val + 1, h⟩ := Fin.ext (by show j'.val = j.val + 1; omega)
      rw [he]
      exact inf_le_right

/-! ## The diagonal column -/

/-- A row carries its own label. -/
theorem same_self (t : Lbl) (r : Fin 8192) : same t r r = 1#1 := by
  simp [same, IntOp.cmpi]

/-- The stand-in −1e30 is a negative real. -/
theorem negBig_le_zero : negBig ≤ 0 := by
  simp [negBig, Ideal.ofBits, Ideal.ieee]
  exact_mod_cast (by positivity : (0 : ℝ) ≤ 13234890 * 2 ^ 76)

/-- On the diagonal the first array holds a clamped distance, which is at least −1e30. -/
theorem negBig_le_pos_diag (x : Pts) (t : Lbl) (r : Fin 8192) : negBig ≤ pos x t r r := by
  have hp : pos x t r r = dist x r r := by simp [pos, same_self, Scalar.select]
  rw [hp]
  exact negBig_le_zero.trans (le_max_right _ _)

/-- On the diagonal the second array holds +1e30. -/
theorem neg_diag (x : Pts) (t : Lbl) (r : Fin 8192) : neg x t r r = posBig := by
  simp [neg, same_self, Scalar.select]

/-! ## The index decompositions -/

theorem row_surj : ∀ r : Fin 8192, ∃ (i : Fin 8) (p : Fin 1024), r = row i p := by
  intro r
  refine ⟨⟨r.val / 1024, by omega⟩, ⟨r.val % 1024, by omega⟩, Fin.ext ?_⟩
  show r.val = r.val / 1024 * 1024 + r.val % 1024
  omega

theorem row_inj {i i' : Fin 8} {p p' : Fin 1024} (h : row i p = row i' p') : i = i' ∧ p = p' := by
  have hv : i.val * 1024 + p.val = i'.val * 1024 + p'.val := congrArg Fin.val h
  exact ⟨Fin.ext (by omega), Fin.ext (by omega)⟩

/-- Every column is lane l of group g of column tile j for some (j, g, l). -/
theorem col_surj : ∀ c : Fin 8192, ∃ (j : Fin 4) (g : Fin 16) (l : Fin 128), c = col j (lane g l) := by
  intro c
  refine ⟨⟨c.val / 2048, by omega⟩, ⟨c.val % 2048 / 128, by omega⟩, ⟨c.val % 128, by omega⟩, Fin.ext ?_⟩
  show c.val = c.val / 2048 * 2048 + (c.val % 2048 / 128 * 128 + c.val % 128)
  omega

/-! ## The walk covers the whole column axis -/

theorem hardPos_tiled (x : Pts) (t : Lbl) (i : Fin 8) (p : Fin 1024) :
    (⨆ l : Fin 128, accMax x t i 3 p l) = hardPos x t (row i p) := by
  refine le_antisymm (iSup_le fun l => sup_le ?_ (iSup_le fun j' => iSup_le fun _ => iSup_le fun g => ?_))
    (iSup_le fun c => ?_)
  · exact (negBig_le_pos_diag x t (row i p)).trans (le_iSup (fun c => pos x t (row i p) c) (row i p))
  · exact le_iSup (fun c => pos x t (row i p) c) (col j' (lane g l))
  · obtain ⟨j, g, l, rfl⟩ := col_surj c
    refine le_iSup_of_le l (le_sup_of_le_right (le_iSup₂_of_le j ?_ (le_iSup_of_le g le_rfl)))
    show j.val ≤ 3
    omega

theorem hardNeg_tiled (x : Pts) (t : Lbl) (i : Fin 8) (p : Fin 1024) :
    (⨅ l : Fin 128, accMin x t i 3 p l) = hardNeg x t (row i p) := by
  refine le_antisymm (le_iInf fun c => ?_)
    (le_iInf fun l => le_inf ?_ (le_iInf fun j' => le_iInf fun _ => le_iInf fun g => ?_))
  · obtain ⟨j, g, l, rfl⟩ := col_surj c
    refine iInf_le_of_le l (inf_le_of_right_le (iInf₂_le_of_le j ?_ (iInf_le_of_le g le_rfl)))
    show j.val ≤ 3
    omega
  · exact (iInf_le (fun c => neg x t (row i p) c) (row i p)).trans (neg_diag x t (row i p)).le
  · exact iInf_le (fun c => neg x t (row i p) c) (col j' (lane g l))

end Cert.Triplet

end
-- ==== Proof.IdealPieces.lean ====
/-
  What each case of the body leaves behind, as the body's own arithmetic.

  Every load and store of the body goes through a whole buffer at its origin, so a load reads the buffer's contents
  and the last store into a buffer leaves its payload there.  Reading the three cases' stores this way:
    at a row tile's first column tile the two running arrays are first set to their starting values (−1e30 and +1e30),
      read back, and merged lane-wise with the tile's maxima and minima;
    at a middle column tile what the tile before left in them is merged with this tile's maxima and minima;
    at the last column tile the same merge happens once more, and the row losses are then formed from the two merged
      arrays read back.
  The tile's maxima and minima are functions of the six input blocks: the two point blocks, the two norm vectors and
  the two label vectors.
-/
import proofs.«170419_j50818053046377_2_alg».proof.Proof.IdealFrame
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every load and store of the body, a whole buffer at its origin. -/
theorem hz2 : (![0, 0] : Fin 2 → ℕ) = fun _ => 0 := by
  funext a
  match a with
  | ⟨0, _⟩ => rfl
  | ⟨1, _⟩ => rfl

/-- At a row tile's first column tile the running maxima are reset to their start and merged with the tile's. -/
theorem sout0_A_0_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) :
    sout0_A_0 c i arg2 harg2 arg3 harg3 arg4 harg4 arg5 harg5 arg6 harg6 arg7 harg7 arg8 harg8 arg9 harg9 arg10 harg10 hc0 hc1 x0 x1 x2 x3 x4 x5 = k0_pay1 (k0_pay8 x0 x1 x4 x5 x2 x3) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero hz2, View.readCov_unit_zero _ hz2]
  simp only [View.readAt_eq_ld, harg2.read_unread, harg3.read_unread, harg4.read_unread, harg5.read_unread,
    harg6.read_unread, harg7.read_unread, harg9.read_unread, harg10.read_unread,
    View.ld_unit_zero (S := S1024x128) hz2, View.ld_unit_zero (S := S2048x128) hz2,
    View.ld_unit_zero (S := S1024x1) hz2, View.ld_unit_zero (S := S1x2048) hz2]

/-- At a row tile's first column tile the running minima are reset to their start and merged with the tile's. -/
theorem sout0_A_1_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) :
    sout0_A_1 c i arg2 harg2 arg3 harg3 arg4 harg4 arg5 harg5 arg6 harg6 arg7 harg7 arg8 harg8 arg9 harg9 arg10 harg10 hc0 hc1 x0 x1 x2 x3 x4 x5 = k0_pay2 (k0_pay9 x0 x1 x4 x5 x2 x3) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero hz2, View.readCov_unit_zero _ hz2]
  simp only [View.readAt_eq_ld, harg2.read_unread, harg3.read_unread, harg4.read_unread, harg5.read_unread,
    harg6.read_unread, harg7.read_unread, harg9.read_unread, harg10.read_unread,
    View.ld_unit_zero (S := S1024x128) hz2, View.ld_unit_zero (S := S2048x128) hz2,
    View.ld_unit_zero (S := S1024x1) hz2, View.ld_unit_zero (S := S1x2048) hz2]

/-- At a middle column tile the running maxima left by the tile before are merged with this tile's. -/
theorem sout0_B_0_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay1 (k0_pay8 x0 x1 x4 x5 x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_cons_unit_zero hz2]
  simp only [View.readAt_eq_ld, harg2.read_unread, harg3.read_unread, harg4.read_unread, harg5.read_unread,
    harg6.read_unread, harg7.read_unread, harg9.read_unread, harg10.read_unread,
    View.ld_unit_zero (S := S1024x128) hz2, View.ld_unit_zero (S := S2048x128) hz2,
    View.ld_unit_zero (S := S1024x1) hz2, View.ld_unit_zero (S := S1x2048) hz2]

/-- At a middle column tile the running minima left by the tile before are merged with this tile's. -/
theorem sout0_B_1_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay2 (k0_pay9 x0 x1 x4 x5 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_cons_unit_zero hz2]
  simp only [View.readAt_eq_ld, harg2.read_unread, harg3.read_unread, harg4.read_unread, harg5.read_unread,
    harg6.read_unread, harg7.read_unread, harg9.read_unread, harg10.read_unread,
    View.ld_unit_zero (S := S1024x128) hz2, View.ld_unit_zero (S := S2048x128) hz2,
    View.ld_unit_zero (S := S1024x1) hz2, View.ld_unit_zero (S := S1x2048) hz2]

/-- At the last column tile the running maxima left by the tile before are merged with this tile's. -/
theorem sout0_C_0_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay1 (k0_pay8 x0 x1 x4 x5 x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero hz2]
  simp only [View.readAt_eq_ld, harg2.read_unread, harg3.read_unread, harg4.read_unread, harg5.read_unread,
    harg6.read_unread, harg7.read_unread, harg9.read_unread, harg10.read_unread,
    View.ld_unit_zero (S := S1024x128) hz2, View.ld_unit_zero (S := S2048x128) hz2,
    View.ld_unit_zero (S := S1024x1) hz2, View.ld_unit_zero (S := S1x2048) hz2]

/-- At the last column tile the running minima left by the tile before are merged with this tile's. -/
theorem sout0_C_1_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay2 (k0_pay9 x0 x1 x4 x5 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero hz2]
  simp only [View.readAt_eq_ld, harg2.read_unread, harg3.read_unread, harg4.read_unread, harg5.read_unread,
    harg6.read_unread, harg7.read_unread, harg9.read_unread, harg10.read_unread,
    View.ld_unit_zero (S := S1024x128) hz2, View.ld_unit_zero (S := S2048x128) hz2,
    View.ld_unit_zero (S := S1024x1) hz2, View.ld_unit_zero (S := S1x2048) hz2]

/-- At the last column tile the row losses are formed from the two merged running arrays. -/
theorem out0_C_6_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1x2048 .f32) (harg7 : arg7.IsWhole) (arg8 : Memref sig .tc .vmem S1024x1 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x128 .f32) (x1 : Vec F S2048x128 .f32) (x2 : Vec F S1024x1 .i32) (x3 : Vec F S1x2048 .i32) (x4 : Vec F S1024x1 .f32) (x5 : Vec F S1x2048 .f32) (xs0 xs1 : Vec F S1024x128 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay3 (k0_pay1 (k0_pay8 x0 x1 x4 x5 x2 x3) xs0) (k0_pay2 (k0_pay9 x0 x1 x4 x5 x2 x3) xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero hz2, View.readCov_unit_zero _ hz2, View.readCov_unit_zero _ hz2]
  simp only [View.readAt_eq_ld, harg2.read_unread, harg3.read_unread, harg4.read_unread, harg5.read_unread,
    harg6.read_unread, harg7.read_unread, harg9.read_unread, harg10.read_unread,
    View.ld_unit_zero (S := S1024x128) hz2, View.ld_unit_zero (S := S2048x128) hz2,
    View.ld_unit_zero (S := S1024x1) hz2, View.ld_unit_zero (S := S1x2048) hz2]

end Cert.KernelIdeal.Frm

end
-- ==== Proof.LibRowMax.lean ====
/-
  A row's maximum over the extended reals, on both sides of a softmax.

  A kernel takes the maximum of each row of an [a, b] array lane-wise (a multi-reduction with a maximum body over the
  last axis, from -∞); a host program takes it by a reduce with a maximum body over the last axis of an [n0, n1, n2]
  array, from its initial value, and jnp then takes the maximum with -∞ once more.  Over the extended reals `max` is
  commutative and associative, so each is the fold of `max` over the row's entries in any order, and -∞ is its identity.
-/
import Idealize.ShloMosaic.Lib.ValueIdx
import Idealize.ShloMosaic.PureOps.Reduce
import Idealize.ShloMosaic.PureOps.Ideal.Laws

namespace Cert.RowMax

open Idealize.ShloMosaic Idealize.ShloMosaic.ValueIdx

/-- -∞ (the f32 pattern 0xFF800000) is below every extended real: the maximum with it changes nothing. -/
theorem max_negInf (a : EReal) : max (Ideal.ofBits .f32 0xFF800000#32) a = a := by
  simp [Ideal.ofBits, Ideal.ieee]

/-- Over the extended reals, the maximum over the last axis of an [a, b] array, read at row r, is the fold of `max`
    from the accumulator's value over the row's b entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have hf : (src ∘ h.lift (ix1 r)) = fun k : Fin b => src (ix2 r k) := funext fun (k : Fin b) => congrArg src (by
    funext c
    apply Fin.ext
    match c with
    | ⟨0, _⟩ => rfl
    | ⟨1, _⟩ => rfl)
  exact congrArg (fun f => Finset.fold max (Ideal.ofBits φ acc) f (Finset.univ : Finset (Fin b))) hf

/-- Over the extended reals, the host's reduce with a maximum body over the last axis of an [n0, n1, n2] array, read at
    (p, q), is the fold of `max` from the initial value over the n2 entries at (p, q, ·). -/
theorem hostRowMax_apply {n0 n1 n2 : ℕ} {φ : FTy} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  have hf : (x ∘ h.lift (ix2 p q)) = fun k : Fin n2 => x (ix3 p q k) := funext fun (k : Fin n2) => congrArg x (by
    funext c
    apply Fin.ext
    match c with
    | ⟨0, _⟩ => rfl
    | ⟨1, _⟩ => rfl
    | ⟨2, _⟩ => rfl)
  exact congrArg (fun f => Finset.fold max (init (Shape.Idx.first hu)) f (Finset.univ : Finset (Fin n2))) hf

end Cert.RowMax
-- ==== Proof.Payload.lean ====
/-
  The kernel body's arithmetic, read one element at a time over the extended reals.

  For one row tile of 1024 points and one column tile of 2048 points the body forms the tile of clamped squared
  distances  d(p, c) = max (‖x_p‖² + ‖y_c‖² − 2·⟨x_p, y_c⟩) 0,  the Gram term ⟨x_p, y_c⟩ = Σ_k x(p,k)·y(c,k) being a
  matrix product accumulated into zero and the two squared norms arriving as a column and a row.  The 2048 columns are
  regrouped as 16 groups of 128 lanes, column (g, l) = g·128 + l, and for each row p and lane l the body keeps
    the largest over g of  d(p, (g,l)) where the labels of p and (g,l) agree, −1e30 elsewhere, and
    the smallest over g of +1e30 where the labels agree, d(p, (g,l)) elsewhere,
  which it then merges lane-wise into two running arrays (started at −1e30 and +1e30).  After the last column tile a
  row's loss is  max (sup_l running-max(p,l) − inf_l running-min(p,l) + 1/2) 0.

  Over the extended reals `max` and `min` commute and associate, so a reduction with a maximum (minimum) body from −∞
  (+∞) over one axis is the supremum (infimum) over that axis's coordinates; every other operation reads through at an
  index by unfolding, and a regrouping of axes reads the entry with the same row-major position.
-/
import proofs.«170419_j50818053046377_2_alg».proof.Proof.Gen.KernelIdeal.Skeleton
import proofs.«170419_j50818053046377_2_alg».proof.Proof.Spec
import proofs.«170419_j50818053046377_2_alg».proof.Proof.LibRowMax
import proofs.«170419_j50818053046377_2_alg».proof.Proof.LibRowStat
import Idealize.ShloMosaic.Lib.Pipeline.Value

noncomputable section

namespace Cert.KernelIdeal.Pay

open Cert.KernelIdeal Cert.KernelIdeal.Gen Cert.Triplet Idealize.ShloMosaic Idealize.ShloMosaic.ValueIdx
open scoped BigOperators

/-! ## The extended reals' bounds as f32 patterns, and folds as suprema -/

/-- The pattern 0xFF800000 is -∞, the least extended real. -/
theorem ofBits_negInf : Ideal.ofBits .f32 0xFF800000#32 = (⊥ : EReal) := by
  simp [Ideal.ofBits, Ideal.ieee]

/-- The pattern 0x7F800000 is +∞, the greatest extended real. -/
theorem ofBits_posInf : Ideal.ofBits .f32 0x7F800000#32 = (⊤ : EReal) := by
  simp [Ideal.ofBits, Ideal.ieee]

/-- The fold of `max` from -∞ over a finite family is the family's supremum. -/
theorem fold_max_bot {n : ℕ} (f : Fin n → EReal) :
    (Finset.univ : Finset (Fin n)).fold max (⊥ : EReal) f = ⨆ k, f k := by
  rw [← Finset.sup_univ_eq_iSup]
  rfl

/-- The fold of `min` from +∞ over a finite family is the family's infimum. -/
theorem fold_min_top {n : ℕ} (f : Fin n → EReal) :
    (Finset.univ : Finset (Fin n)).fold min (⊤ : EReal) f = ⨅ k, f k := by
  rw [← Finset.inf_univ_eq_iInf]
  rfl

/-- A minimum reduction over one axis, read at an index of the result: the fold of `min` from the accumulator's value
    over that axis's coordinates (`min` on the extended reals commutes and associates, so the order does not matter). -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The minimum over the last axis of an [a, b] array, read at row r: the fold of `min` over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  have hf : (src ∘ h.lift (ix1 r)) = fun k : Fin b => src (ix2 r k) := funext fun (k : Fin b) => congrArg src (by
    funext c
    apply Fin.ext
    match c with
    | ⟨0, _⟩ => rfl
    | ⟨1, _⟩ => rfl)
  exact congrArg (fun f => Finset.fold min (Ideal.ofBits φ acc) f (Finset.univ : Finset (Fin b))) hf

/-! ## The lane-wise merges and the two starting values -/

/-- Merging a column tile's lane-wise maxima into the running ones: the larger of the two, entry by entry. -/
theorem pay1_apply (v32 : FVec Ideal S1024x128 .f32) (v34 : Vec Ideal S1024x128 .f32) (i : S1024x128.Idx) :
    k0_pay1 (F := Ideal) v32 v34 i = max (v34 i) (v32 i) := by
  unfold k0_pay1
  rw [shapeCast_self]
  rfl

/-- Merging a column tile's lane-wise minima into the running ones: the smaller of the two, entry by entry. -/
theorem pay2_apply (v33 : FVec Ideal S1024x128 .f32) (v39 : Vec Ideal S1024x128 .f32) (i : S1024x128.Idx) :
    k0_pay2 (F := Ideal) v33 v39 i = min (v39 i) (v33 i) := by
  unfold k0_pay2
  rw [shapeCast_self]
  rfl

/-- The running maxima start at −1e30 everywhere. -/
theorem pay4_apply (i : S1024x128.Idx) : k0_pay4 (F := Ideal) i = negBig := by
  unfold k0_pay4
  rw [shapeCast_self]
  rfl

/-- The running minima start at +1e30 everywhere. -/
theorem pay5_apply (i : S1024x128.Idx) : k0_pay5 (F := Ideal) i = posBig := by
  unfold k0_pay5
  rw [shapeCast_self]
  rfl

/-! ## The last column tile's row loss -/

/-- Row p's loss from the two running arrays: the largest lane of the first less the smallest lane of the second,
    plus the margin 1/2, clamped at 0. -/
theorem pay3_apply (v47 v50 : Vec Ideal S1024x128 .f32) (p : Fin 1024) (u : Fin 1) :
    k0_pay3 (F := Ideal) v47 v50 (ix2 p u)
      = max ((⨆ l : Fin 128, v47 (ix2 p l)) - (⨅ l : Fin 128, v50 (ix2 p l)) + half) 0 := by
  have hmax : shapeCast S1024x1 (multiReduction (F := Ideal) .maximumf [1] S1024 v47 0xFF800000#32 reduces_S1024x128_S1024 (.inl rfl) rfl)
      shapeCasts_S1024_S1024x1 (ix2 p u) = ⨆ l : Fin 128, v47 (ix2 p l) :=
    (Cert.RowStat.column_cast_apply _ _ p u).trans
      ((Cert.RowMax.rowMax_apply v47 _ _ _ _ p).trans
        ((congrArg (fun z => (Finset.univ : Finset (Fin 128)).fold max z (fun k => v47 (ix2 p k))) ofBits_negInf).trans
          (fold_max_bot _)))
  have hmin : shapeCast S1024x1 (multiReduction (F := Ideal) .minimumf [1] S1024 v50 0x7F800000#32 reduces_S1024x128_S1024 (.inl rfl) rfl)
      shapeCasts_S1024_S1024x1 (ix2 p u) = ⨅ l : Fin 128, v50 (ix2 p l) :=
    (Cert.RowStat.column_cast_apply _ _ p u).trans
      ((rowMin_apply v50 _ _ _ _ p).trans
        ((congrArg (fun z => (Finset.univ : Finset (Fin 128)).fold min z (fun k => v50 (ix2 p k))) ofBits_posInf).trans
          (fold_min_top _)))
  unfold k0_pay3
  show max (shapeCast S1024x1 (multiReduction (F := Ideal) .maximumf [1] S1024 v47 0xFF800000#32 reduces_S1024x128_S1024 (.inl rfl) rfl)
        shapeCasts_S1024_S1024x1 (ix2 p u)
      - shapeCast S1024x1 (multiReduction (F := Ideal) .minimumf [1] S1024 v50 0x7F800000#32 reduces_S1024x128_S1024 (.inl rfl) rfl)
        shapeCasts_S1024_S1024x1 (ix2 p u)
      + Ideal.ofBits .f32 0x3F000000#32) (Ideal.ofBits .f32 0x00000000#32) = _
  rw [hmax, hmin, Ideal.ofBits_zero_f32]
  rfl

/-! ## The layout operations of the distance tile, read at an index -/

/-- A [1024, 2048] tile regrouped as [1024, 16, 128], read at (p, g, l): the tile's entry (p, g·128 + l). -/
theorem regroup_apply {α : Type} (x : S1024x2048.Idx → α) (h : S1024x2048.ShapeCasts S1024x16x128)
    (p : Fin 1024) (g : Fin 16) (l : Fin 128) :
    shapeCast S1024x16x128 x h (ix3 p g l) = x (ix2 p (lane g l)) :=
  shapeCast_apply x h _ _ (by
    rw [Shape.rowMajor_val_two, Shape.rowMajor_val_three]
    show p.val * 2048 + (g.val * 128 + l.val) = (p.val * 16 + g.val) * 128 + l.val
    omega)

/-- A [1024, 1] column spread over the 2048 columns of a tile, read at (p, c): the column's entry p. -/
theorem colSpread_apply {α : Type} (x : S1024x1.Idx → α) (h : S1024x1.ShapeCasts S1024x1)
    (hb : S1024x1.Broadcasts S1024x2048) (p : Fin 1024) (c : Fin 2048) :
    broadcastTo S1024x2048 (shapeCast S1024x1 x h) hb (ix2 p c) = x (ix2 p (0 : Fin 1)) := by
  rw [shapeCast_self]
  refine broadcastTo_apply x hb (ix2 p c) (ix2 p (0 : Fin 1)) fun ax => ?_
  match ax with
  | ⟨0, _⟩ => rfl
  | ⟨1, _⟩ => rfl

/-- A [1, 2048] row spread over the 1024 rows of a tile, read at (p, c): the row's entry c. -/
theorem rowSpread_apply {α : Type} (x : S1x2048.Idx → α) (h : S1x2048.ShapeCasts S1x2048)
    (hb : S1x2048.Broadcasts S1024x2048) (p : Fin 1024) (c : Fin 2048) :
    broadcastTo S1024x2048 (shapeCast S1x2048 x h) hb (ix2 p c) = x (ix2 (0 : Fin 1) c) := by
  rw [shapeCast_self]
  refine broadcastTo_apply x hb (ix2 p c) (ix2 (0 : Fin 1) c) fun ax => ?_
  match ax with
  | ⟨0, _⟩ => rfl
  | ⟨1, _⟩ => rfl

/-- A [1024, 1] column of labels set up as [1024, 1, 1] and spread over [1024, 16, 128], read at (p, g, l): entry p. -/
theorem colSpread3_apply {α : Type} (x : S1024x1.Idx → α) (h : S1024x1.ShapeCasts S1024x1)
    (h3 : S1024x1.ShapeCasts S1024x1x1) (hb : S1024x1x1.Broadcasts S1024x16x128) (p : Fin 1024) (g : Fin 16) (l : Fin 128) :
    broadcastTo S1024x16x128 (shapeCast S1024x1x1 (shapeCast S1024x1 x h) h3) hb (ix3 p g l) = x (ix2 p (0 : Fin 1)) := by
  rw [shapeCast_self]
  refine (broadcastTo_apply _ hb (ix3 p g l) (ix3 p (0 : Fin 1) (0 : Fin 1)) fun ax => ?_).trans ?_
  · match ax with
    | ⟨0, _⟩ => rfl
    | ⟨1, _⟩ => rfl
    | ⟨2, _⟩ => rfl
  · exact shapeCast_apply x h3 _ _ (by
      rw [Shape.rowMajor_val_two, Shape.rowMajor_val_three]
      show p.val * 1 + 0 = (p.val * 1 + 0) * 1 + 0
      omega)

/-- A [1, 2048] row of labels regrouped as [1, 16, 128] and spread over [1024, 16, 128], read at (p, g, l):
    entry g·128 + l. -/
theorem rowSpread3_apply {α : Type} (x : S1x2048.Idx → α) (h : S1x2048.ShapeCasts S1x2048)
    (h3 : S1x2048.ShapeCasts S1x16x128) (hb : S1x16x128.Broadcasts S1024x16x128) (p : Fin 1024) (g : Fin 16) (l : Fin 128) :
    broadcastTo S1024x16x128 (shapeCast S1x16x128 (shapeCast S1x2048 x h) h3) hb (ix3 p g l) = x (ix2 (0 : Fin 1) (lane g l)) := by
  rw [shapeCast_self]
  refine (broadcastTo_apply _ hb (ix3 p g l) (ix3 (0 : Fin 1) g l) fun ax => ?_).trans ?_
  · match ax with
    | ⟨0, _⟩ => rfl
    | ⟨1, _⟩ => rfl
    | ⟨2, _⟩ => rfl
  · exact shapeCast_apply x h3 _ _ (by
      rw [Shape.rowMajor_val_two, Shape.rowMajor_val_three]
      show 0 * 2048 + (g.val * 128 + l.val) = (0 * 16 + g.val) * 128 + l.val
      omega)

/-! ## The Gram tile: the matrix product read at an index -/

/-- The product's left operand index at output (i₀, i₁): row i₀ on the kept axis. -/
theorem gram_lhs_row (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl

/-- The product's right operand index at output (i₀, i₁): row i₁ on the kept axis. -/
theorem gram_rhs_row (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl

/-- The product of a [1024, 128] block with the transpose of a [2048, 128] block, accumulated into zero, read at
    (p, c): the inner product of row p of the first with row c of the second. -/
theorem gramTile_apply (v3 : FVec Ideal S1024x128 .f32) (v4 : FVec Ideal S2048x128 .f32) (p : Fin 1024) (c : Fin 2048) :
    matmul dot_S1024x128_S2048x128_S1024x2048_1_1_0_0_n_n none v3 v4 (constant (F := Ideal) S1024x2048 .f32 0x00000000#32) (ix2 p c)
      = ∑ k : Fin 128, v3 (ix2 p k) * v4 (ix2 c k) := by
  refine (Ideal.matmul_constant_zero_apply dot_S1024x128_S2048x128_S1024x2048_1_1_0_0_n_n none v3 v4 (ix2 p c)).trans ?_
  rw [← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p c) ((contrEquiv1 dot_S1024x128_S2048x128_S1024x2048_1_1_0_0_n_n 128 rfl rfl).symm k) = ix2 p k := funext fun a => Fin.ext (by
    match a with
    | ⟨0, _⟩ => exact gram_lhs_row _ _
    | ⟨1, _⟩ => exact (dot_S1024x128_S2048x128_S1024x2048_1_1_0_0_n_n.lhsIdx_val_of_single rfl _ _).trans hk)
  have er : dot_S1024x128_S2048x128_S1024x2048_1_1_0_0_n_n.rhsIdx (ix2 p c) ((contrEquiv1 dot_S1024x128_S2048x128_S1024x2048_1_1_0_0_n_n 128 rfl rfl).symm k) = ix2 c k := funext fun a => Fin.ext (by
    match a with
    | ⟨0, _⟩ => exact gram_rhs_row _ _
    | ⟨1, _⟩ => exact (dot_S1024x128_S2048x128_S1024x2048_1_1_0_0_n_n.rhsIdx_val_of_single rfl _ _).trans hk)
  rw [el, er]

/-! ## A reduction over the middle axis of a rank-3 array -/

/-- The maximum over the middle axis of an [a, b, c] array, read at (p, l): the fold of `max` from the accumulator's
    value over the b entries (p, ·, l). -/
theorem midMax_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.maximumf.neutral φ hφ) (p : Fin a) (l : Fin c) :
    multiReduction .maximumf [1] ⟨2, ![a, c]⟩ src acc h hφ hacc (ix2 p l)
      = (Finset.univ : Finset (Fin b)).fold max (Ideal.ofBits φ acc) (fun g => src (ix3 p g l)) := by
  refine (Ideal.multiReduction_maximumf_single src acc h hφ hacc (ix2 p l)).trans ?_
  have hf : (src ∘ h.lift (ix2 p l)) = fun g : Fin b => src (ix3 p g l) := funext fun (g : Fin b) => congrArg src (by
    funext d
    apply Fin.ext
    match d with
    | ⟨0, _⟩ => rfl
    | ⟨1, _⟩ => rfl
    | ⟨2, _⟩ => rfl)
  exact congrArg (fun f => Finset.fold max (Ideal.ofBits φ acc) f (Finset.univ : Finset (Fin b))) hf

/-- The minimum over the middle axis of an [a, b, c] array, read at (p, l): the fold of `min` over the b entries (p, ·, l). -/
theorem midMin_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.minimumf.neutral φ hφ) (p : Fin a) (l : Fin c) :
    multiReduction .minimumf [1] ⟨2, ![a, c]⟩ src acc h hφ hacc (ix2 p l)
      = (Finset.univ : Finset (Fin b)).fold min (Ideal.ofBits φ acc) (fun g => src (ix3 p g l)) := by
  refine (multiReduction_minimumf_single src acc h hφ hacc (ix2 p l)).trans ?_
  have hf : (src ∘ h.lift (ix2 p l)) = fun g : Fin b => src (ix3 p g l) := funext fun (g : Fin b) => congrArg src (by
    funext d
    apply Fin.ext
    match d with
    | ⟨0, _⟩ => rfl
    | ⟨1, _⟩ => rfl
    | ⟨2, _⟩ => rfl)
  exact congrArg (fun f => Finset.fold min (Ideal.ofBits φ acc) f (Finset.univ : Finset (Fin b))) hf

/-! ## The distance tile, the label mask, and one column tile's lane-wise extremes -/

/-- The clamped squared distances of a [1024, 2048] tile, regrouped as [1024, 16, 128], read at (p, g, l). -/
theorem pay6_apply (v3 : Vec Ideal S1024x128 .f32) (v4 : Vec Ideal S2048x128 .f32) (v6 : Vec Ideal S1024x1 .f32)
    (v8 : Vec Ideal S1x2048 .f32) (p : Fin 1024) (g : Fin 16) (l : Fin 128) :
    k0_pay6 (F := Ideal) v3 v4 v6 v8 (ix3 p g l)
      = max (v6 (ix2 p 0) + v8 (ix2 0 (lane g l)) - two * ∑ k : Fin 128, v3 (ix2 p k) * v4 (ix2 (lane g l) k)) 0 := by
  unfold k0_pay6
  refine (regroup_apply _ _ p g l).trans ?_
  show max (broadcastTo S1024x2048 (shapeCast S1024x1 v6 shapeCasts_S1024x1_S1024x1) broadcasts_S1024x1_S1024x2048 (ix2 p (lane g l))
      + broadcastTo S1024x2048 (shapeCast S1x2048 v8 shapeCasts_S1x2048_S1x2048) broadcasts_S1x2048_S1024x2048 (ix2 p (lane g l))
      - Ideal.ofBits .f32 0x40000000#32
        * matmul dot_S1024x128_S2048x128_S1024x2048_1_1_0_0_n_n none v3 v4 (constant (F := Ideal) S1024x2048 .f32 0x00000000#32) (ix2 p (lane g l)))
      (Ideal.ofBits .f32 0x00000000#32) = _
  rw [colSpread_apply, rowSpread_apply, gramTile_apply, Ideal.ofBits_zero_f32]
  rfl

/-- Whether row p and column g·128 + l of the tile carry the same label, read at (p, g, l). -/
theorem pay7_apply (v19 : Vec Ideal S1024x1 .i32) (v22 : Vec Ideal S1x2048 .i32) (p : Fin 1024) (g : Fin 16) (l : Fin 128) :
    k0_pay7 (F := Ideal) v19 v22 (ix3 p g l) = IntOp.cmpi .eq (v19 (ix2 p 0)) (v22 (ix2 0 (lane g l))) := by
  unfold k0_pay7
  show IntOp.cmpi .eq
      (broadcastTo S1024x16x128 (shapeCast S1024x1x1 (shapeCast S1024x1 v19 shapeCasts_S1024x1_S1024x1) shapeCasts_S1024x1_S1024x1x1)
        broadcasts_S1024x1x1_S1024x16x128 (ix3 p g l))
      (broadcastTo S1024x16x128 (shapeCast S1x16x128 (shapeCast S1x2048 v22 shapeCasts_S1x2048_S1x2048) shapeCasts_S1x2048_S1x16x128)
        broadcasts_S1x16x128_S1024x16x128 (ix3 p g l)) = _
  rw [colSpread3_apply, rowSpread3_apply]

/-- Lane l of row p after one column tile: the largest, over the tile's 16 groups, of the distance where the labels
    agree and of -1e30 elsewhere. -/
theorem pay8_apply (v3 : Vec Ideal S1024x128 .f32) (v4 : Vec Ideal S2048x128 .f32) (v6 : Vec Ideal S1024x1 .f32)
    (v8 : Vec Ideal S1x2048 .f32) (v19 : Vec Ideal S1024x1 .i32) (v22 : Vec Ideal S1x2048 .i32) (p : Fin 1024) (l : Fin 128) :
    k0_pay8 (F := Ideal) v3 v4 v6 v8 v19 v22 (ix2 p l)
      = ⨆ g : Fin 16, Scalar.select (IntOp.cmpi .eq (v19 (ix2 p 0)) (v22 (ix2 0 (lane g l))))
          (max (v6 (ix2 p 0) + v8 (ix2 0 (lane g l)) - two * ∑ k : Fin 128, v3 (ix2 p k) * v4 (ix2 (lane g l) k)) 0) negBig := by
  unfold k0_pay8
  refine (midMax_apply _ _ _ _ _ p l).trans ?_
  refine (congrArg (fun z => (Finset.univ : Finset (Fin 16)).fold max z _) ofBits_negInf).trans ?_
  refine (fold_max_bot _).trans ?_
  refine iSup_congr fun g => ?_
  show Scalar.select (k0_pay7 (F := Ideal) v19 v22 (ix3 p g l)) (k0_pay6 (F := Ideal) v3 v4 v6 v8 (ix3 p g l))
      (Ideal.ofBits .f32 0xF149F2CA#32) = _
  rw [pay7_apply, pay6_apply]
  rfl

/-- Lane l of row p after one column tile: the smallest, over the tile's 16 groups, of +1e30 where the labels agree
    and of the distance elsewhere. -/
theorem pay9_apply (v3 : Vec Ideal S1024x128 .f32) (v4 : Vec Ideal S2048x128 .f32) (v6 : Vec Ideal S1024x1 .f32)
    (v8 : Vec Ideal S1x2048 .f32) (v19 : Vec Ideal S1024x1 .i32) (v22 : Vec Ideal S1x2048 .i32) (p : Fin 1024) (l : Fin 128) :
    k0_pay9 (F := Ideal) v3 v4 v6 v8 v19 v22 (ix2 p l)
      = ⨅ g : Fin 16, Scalar.select (IntOp.cmpi .eq (v19 (ix2 p 0)) (v22 (ix2 0 (lane g l)))) posBig
          (max (v6 (ix2 p 0) + v8 (ix2 0 (lane g l)) - two * ∑ k : Fin 128, v3 (ix2 p k) * v4 (ix2 (lane g l) k)) 0) := by
  unfold k0_pay9
  refine (midMin_apply _ _ _ _ _ p l).trans ?_
  refine (congrArg (fun z => (Finset.univ : Finset (Fin 16)).fold min z _) ofBits_posInf).trans ?_
  refine (fold_min_top _).trans ?_
  refine iInf_congr fun g => ?_
  show Scalar.select (k0_pay7 (F := Ideal) v19 v22 (ix3 p g l)) (Ideal.ofBits .f32 0x7149F2CA#32)
      (k0_pay6 (F := Ideal) v3 v4 v6 v8 (ix3 p g l)) = _
  rw [pay7_apply, pay6_apply]
  rfl

end Cert.KernelIdeal.Pay

end
-- ==== Proof.Blocks.lean ====
/-
  The blocks of the six input windows, read at an index.

  Grid point t is row tile t / 4 against column tile t % 4.  A window's block at a point is a rectangle of its array:
  on each axis the block's coordinate is (the window's block index on that axis) × (the block's extent) + (the
  coordinate inside the block).  The block indices are decided once over the 32 grid points; what is left is
  arithmetic:
    the row-tile windows (points, label column, norm column) read rows  (t / 4)·1024 + p,
    the column-tile windows (points, label row, norm row) read rows, or columns,  (t % 4)·2048 + q.
-/
import proofs.«170419_j50818053046377_2_alg».proof.Proof.IdealBase
import proofs.«170419_j50818053046377_2_alg».proof.Proof.Spec

set_option maxRecDepth 16384

noncomputable section

namespace Cert.KernelIdeal.Val

open Cert.KernelIdeal Cert.KernelIdeal.Gen Cert.KernelIdeal.Frm Cert.Triplet
open Idealize.ShloMosaic Idealize.ShloMosaic.ValueIdx Idealize.ShloMosaic.TcCoe

variable {F : FTy → Type} [FloatOps F]

/-! ## The block indices over the grid -/

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val % 4 :=
  (by decide +kernel : ∀ t : Fin grid0.N, _)
theorem idx4 : ∀ t : Fin cfg0.N, win0_4.index t (0 : Fin 2) = t.val / 4 ∧ win0_4.index t (1 : Fin 2) = 0 :=
  (by decide +kernel : ∀ t : Fin grid0.N, _)
theorem idx5 : ∀ t : Fin cfg0.N, win0_5.index t (0 : Fin 2) = 0 ∧ win0_5.index t (1 : Fin 2) = t.val % 4 :=
  (by decide +kernel : ∀ t : Fin grid0.N, _)

variable (m : (ℓ : Loc nD τ sig) → Buf (Elt F) ℓ) (c : Dev nD)

/-! ## The blocks -/

/-- The row tile's 1024 points. -/
theorem blk0 (t : Fin cfg0.N) (ti : Fin 8) (hi : ti.val = t.val / 4) (p : Fin 1024) (k : Fin 128) :
    iblk m c 0 t (ix2 p k) = V m c main_arg0 (ix2 (row ti p) k) := by
  obtain ⟨e0, e1⟩ := idx0 t
  unfold iblk
  show V m c main_arg0 (((cfg0.win 0).blk t).view.emb (ix2 p k)) = V m c main_arg0 (ix2 (row ti p) k)
  refine congrArg (V m c main_arg0) (funext fun a => Fin.ext ?_)
  match a with
  | ⟨0, _⟩ => show win0_0.index t (0 : Fin 2) * 1024 + 1 * p.val = ti.val * 1024 + p.val; omega
  | ⟨1, _⟩ => show win0_0.index t (1 : Fin 2) * 128 + 1 * k.val = k.val; omega

/-- The column tile's 2048 points. -/
theorem blk1 (t : Fin cfg0.N) (tj : Fin 4) (hj : tj.val = t.val % 4) (q : Fin 2048) (k : Fin 128) :
    iblk m c 1 t (ix2 q k) = V m c main_arg0 (ix2 (col tj q) k) := by
  obtain ⟨e0, e1⟩ := idx1 t
  unfold iblk
  show V m c main_arg0 (((cfg0.win 1).blk t).view.emb (ix2 q k)) = V m c main_arg0 (ix2 (col tj q) k)
  refine congrArg (V m c main_arg0) (funext fun a => Fin.ext ?_)
  match a with
  | ⟨0, _⟩ => show win0_1.index t (0 : Fin 2) * 2048 + 1 * q.val = tj.val * 2048 + q.val; omega
  | ⟨1, _⟩ => show win0_1.index t (1 : Fin 2) * 128 + 1 * k.val = k.val; omega

/-- The row tile's 1024 entries of the label column. -/
theorem blk2 (t : Fin cfg0.N) (ti : Fin 8) (hi : ti.val = t.val / 4) (p : Fin 1024) (u : Fin 1) :
    iblk m c 2 t (ix2 p u) = V m c main_v0 (ix2 (row ti p) u) := by
  obtain ⟨e0, e1⟩ := idx2 t
  unfold iblk
  show V m c main_v0 (((cfg0.win 2).blk t).view.emb (ix2 p u)) = V m c main_v0 (ix2 (row ti p) u)
  refine congrArg (V m c main_v0) (funext fun a => Fin.ext ?_)
  match a with
  | ⟨0, _⟩ => show win0_2.index t (0 : Fin 2) * 1024 + 1 * p.val = ti.val * 1024 + p.val; omega
  | ⟨1, _⟩ => show win0_2.index t (1 : Fin 2) * 1 + 1 * u.val = u.val; omega

/-- The column tile's 2048 entries of the label row. -/
theorem blk3 (t : Fin cfg0.N) (tj : Fin 4) (hj : tj.val = t.val % 4) (u : Fin 1) (q : Fin 2048) :
    iblk m c 3 t (ix2 u q) = V m c main_v1 (ix2 u (col tj q)) := by
  obtain ⟨e0, e1⟩ := idx3 t
  unfold iblk
  show V m c main_v1 (((cfg0.win 3).blk t).view.emb (ix2 u q)) = V m c main_v1 (ix2 u (col tj q))
  refine congrArg (V m c main_v1) (funext fun a => Fin.ext ?_)
  match a with
  | ⟨0, _⟩ => show win0_3.index t (0 : Fin 2) * 1 + 1 * u.val = u.val; omega
  | ⟨1, _⟩ => show win0_3.index t (1 : Fin 2) * 2048 + 1 * q.val = tj.val * 2048 + q.val; omega

/-- The row tile's 1024 entries of the norm column. -/
theorem blk4 (t : Fin cfg0.N) (ti : Fin 8) (hi : ti.val = t.val / 4) (p : Fin 1024) (u : Fin 1) :
    iblk m c 4 t (ix2 p u) = V m c main_v4 (ix2 (row ti p) u) := by
  obtain ⟨e0, e1⟩ := idx4 t
  unfold iblk
  show V m c main_v4 (((cfg0.win 4).blk t).view.emb (ix2 p u)) = V m c main_v4 (ix2 (row ti p) u)
  refine congrArg (V m c main_v4) (funext fun a => Fin.ext ?_)
  match a with
  | ⟨0, _⟩ => show win0_4.index t (0 : Fin 2) * 1024 + 1 * p.val = ti.val * 1024 + p.val; omega
  | ⟨1, _⟩ => show win0_4.index t (1 : Fin 2) * 1 + 1 * u.val = u.val; omega

/-- The column tile's 2048 entries of the norm row. -/
theorem blk5 (t : Fin cfg0.N) (tj : Fin 4) (hj : tj.val = t.val % 4) (u : Fin 1) (q : Fin 2048) :
    iblk m c 5 t (ix2 u q) = V m c main_v5 (ix2 u (col tj q)) := by
  obtain ⟨e0, e1⟩ := idx5 t
  unfold iblk
  show V m c main_v5 (((cfg0.win 5).blk t).view.emb (ix2 u q)) = V m c main_v5 (ix2 u (col tj q))
  refine congrArg (V m c main_v5) (funext fun a => Fin.ext ?_)
  match a with
  | ⟨0, _⟩ => show win0_5.index t (0 : Fin 2) * 1 + 1 * u.val = u.val; omega
  | ⟨1, _⟩ => show win0_5.index t (1 : Fin 2) * 2048 + 1 * q.val = tj.val * 2048 + q.val; omega

end Cert.KernelIdeal.Val
end
-- ==== Proof.IdealAcc.lean ====
/-
  The accumulation at the exact values.

  At grid point t — row tile t / 4 against column tile t % 4 — the body's lane-wise maxima and minima of the tile are,
  with the six blocks read off the arrays, the specification's tileMax and tileMin.  The two accumulators therefore
  follow the specification's recurrence: after a first column tile they are the tile folded into −1e30 and +1e30,
  after every later one the tile folded into what the point before left.  By induction over the grid points they
  hold the running maximum and minimum over column tiles 0 … t % 4, and at a last column tile the stored value, the
  largest lane less the smallest lane plus 1/2 clamped at 0, is the row's hinge loss, because the walk over
  (tile, group, lane) covers every column.
-/
import proofs.«170419_j50818053046377_2_alg».proof.Proof.IdealFrame
import proofs.«170419_j50818053046377_2_alg».proof.Proof.IdealPieces
import proofs.«170419_j50818053046377_2_alg».proof.Proof.Payload
import proofs.«170419_j50818053046377_2_alg».proof.Proof.HostOps
import proofs.«170419_j50818053046377_2_alg».proof.Proof.Blocks
import proofs.«170419_j50818053046377_2_alg».proof.Proof.Tiles
import proofs.«170419_j50818053046377_2_alg».proof.Proof.Spec

set_option maxRecDepth 16384

noncomputable section

namespace Cert.KernelIdeal.Val

open Cert.KernelIdeal Cert.KernelIdeal.Gen Cert.KernelIdeal.Frm Cert.Triplet
open Idealize.ShloMosaic Idealize.ShloMosaic.ValueIdx Idealize.ShloMosaic.TcCoe
open scoped BigOperators

/-! ## One column tile's lane-wise extremes, from the blocks -/

/-- With the six blocks read off the arrays, lane l of row p after one column tile is the tile's maximum. -/
theorem tile8_of (x : Pts) (tg : Lbl) (ti : Fin 8) (tj : Fin 4)
    (v3 : Vec Ideal S1024x128 .f32) (v4 : Vec Ideal S2048x128 .f32) (v6 : Vec Ideal S1024x1 .f32) (v8 : Vec Ideal S1x2048 .f32)
    (v19 : Vec Ideal S1024x1 .i32) (v22 : Vec Ideal S1x2048 .i32)
    (h3 : ∀ (p : Fin 1024) (k : Fin 128), v3 (ix2 p k) = x (ix2 (row ti p) k))
    (h4 : ∀ (q : Fin 2048) (k : Fin 128), v4 (ix2 q k) = x (ix2 (col tj q) k))
    (h6 : ∀ (p : Fin 1024) (u : Fin 1), v6 (ix2 p u) = sq x (row ti p))
    (h8 : ∀ (u : Fin 1) (q : Fin 2048), v8 (ix2 u q) = sq x (col tj q))
    (h19 : ∀ (p : Fin 1024) (u : Fin 1), v19 (ix2 p u) = tg (ix1 (row ti p)))
    (h22 : ∀ (u : Fin 1) (q : Fin 2048), v22 (ix2 u q) = tg (ix1 (col tj q)))
    (p : Fin 1024) (l : Fin 128) :
    k0_pay8 (F := Ideal) v3 v4 v6 v8 v19 v22 (ix2 p l) = tileMax x tg ti tj p l := by
  refine (Pay.pay8_apply v3 v4 v6 v8 v19 v22 p l).trans ?_
  unfold tileMax
  refine iSup_congr fun g => ?_
  rw [h19, h22, h6, h8]
  simp only [h3, h4]
  rfl

/-- and the tile's minimum. -/
theorem tile9_of (x : Pts) (tg : Lbl) (ti : Fin 8) (tj : Fin 4)
    (v3 : Vec Ideal S1024x128 .f32) (v4 : Vec Ideal S2048x128 .f32) (v6 : Vec Ideal S1024x1 .f32) (v8 : Vec Ideal S1x2048 .f32)
    (v19 : Vec Ideal S1024x1 .i32) (v22 : Vec Ideal S1x2048 .i32)
    (h3 : ∀ (p : Fin 1024) (k : Fin 128), v3 (ix2 p k) = x (ix2 (row ti p) k))
    (h4 : ∀ (q : Fin 2048) (k : Fin 128), v4 (ix2 q k) = x (ix2 (col tj q) k))
    (h6 : ∀ (p : Fin 1024) (u : Fin 1), v6 (ix2 p u) = sq x (row ti p))
    (h8 : ∀ (u : Fin 1) (q : Fin 2048), v8 (ix2 u q) = sq x (col tj q))
    (h19 : ∀ (p : Fin 1024) (u : Fin 1), v19 (ix2 p u) = tg (ix1 (row ti p)))
    (h22 : ∀ (u : Fin 1) (q : Fin 2048), v22 (ix2 u q) = tg (ix1 (col tj q)))
    (p : Fin 1024) (l : Fin 128) :
    k0_pay9 (F := Ideal) v3 v4 v6 v8 v19 v22 (ix2 p l) = tileMin x tg ti tj p l := by
  refine (Pay.pay9_apply v3 v4 v6 v8 v19 v22 p l).trans ?_
  unfold tileMin
  refine iInf_congr fun g => ?_
  rw [h19, h22, h6, h8]
  simp only [h3, h4]
  rfl

variable (m : (ℓ : Loc nD τ sig) → Buf (Elt Ideal) ℓ) (c : Dev nD)

/-- At grid point t, row tile ti against column tile tj, the body's lane-wise maxima are the tile's. -/
theorem tile8 (t : Fin cfg0.N) (ti : Fin 8) (hi : ti.val = t.val / 4) (tj : Fin 4) (hj : tj.val = t.val % 4)
    (p : Fin 1024) (l : Fin 128) :
    k0_pay8 (F := Ideal) (iblk m c 0 t) (iblk m c 1 t) (iblk m c 4 t) (iblk m c 5 t) (iblk m c 2 t) (iblk m c 3 t) (ix2 p l)
      = tileMax (m ((c : Thread nD τ).loc main_arg0) : Pts) (m ((c : Thread nD τ).loc main_arg1) : Lbl) ti tj p l :=
  tile8_of (m ((c : Thread nD τ).loc main_arg0) : Pts) (m ((c : Thread nD τ).loc main_arg1) : Lbl) ti tj (iblk m c 0 t) (iblk m c 1 t) (iblk m c 4 t) (iblk m c 5 t) (iblk m c 2 t) (iblk m c 3 t)
    (fun p k => (blk0 m c t ti hi p k).trans (congrFun (V_arg0 m c) (ix2 (row ti p) k)))
    (fun q k => (blk1 m c t tj hj q k).trans (congrFun (V_arg0 m c) (ix2 (col tj q) k)))
    (fun p u => (blk4 m c t ti hi p u).trans (V_v4 m c (row ti p) u))
    (fun u q => (blk5 m c t tj hj u q).trans (V_v5 m c u (col tj q)))
    (fun p u => (blk2 m c t ti hi p u).trans (V_v0 m c (row ti p) u))
    (fun u q => (blk3 m c t tj hj u q).trans (V_v1 m c u (col tj q)))
    p l

/-- and its lane-wise minima. -/
theorem tile9 (t : Fin cfg0.N) (ti : Fin 8) (hi : ti.val = t.val / 4) (tj : Fin 4) (hj : tj.val = t.val % 4)
    (p : Fin 1024) (l : Fin 128) :
    k0_pay9 (F := Ideal) (iblk m c 0 t) (iblk m c 1 t) (iblk m c 4 t) (iblk m c 5 t) (iblk m c 2 t) (iblk m c 3 t) (ix2 p l)
      = tileMin (m ((c : Thread nD τ).loc main_arg0) : Pts) (m ((c : Thread nD τ).loc main_arg1) : Lbl) ti tj p l :=
  tile9_of (m ((c : Thread nD τ).loc main_arg0) : Pts) (m ((c : Thread nD τ).loc main_arg1) : Lbl) ti tj (iblk m c 0 t) (iblk m c 1 t) (iblk m c 4 t) (iblk m c 5 t) (iblk m c 2 t) (iblk m c 3 t)
    (fun p k => (blk0 m c t ti hi p k).trans (congrFun (V_arg0 m c) (ix2 (row ti p) k)))
    (fun q k => (blk1 m c t tj hj q k).trans (congrFun (V_arg0 m c) (ix2 (col tj q) k)))
    (fun p u => (blk4 m c t ti hi p u).trans (V_v4 m c (row ti p) u))
    (fun u q => (blk5 m c t tj hj u q).trans (V_v5 m c u (col tj q)))
    (fun p u => (blk2 m c t ti hi p u).trans (V_v0 m c (row ti p) u))
    (fun u q => (blk3 m c t tj hj u q).trans (V_v1 m c u (col tj q)))
    p l

/-! ## What the cases leave, point by point -/

/-- Folding one more column tile into the running maximum. -/
theorem accMax_step (x : Pts) (tg : Lbl) (ti : Fin 8) (tj : Fin 4) (h : tj.val ≠ 0) (p : Fin 1024) (l : Fin 128) :
    max (accMax x tg ti ⟨tj.val - 1, by omega⟩ p l) (tileMax x tg ti tj p l) = accMax x tg ti tj p l := by
  have hs : (⟨tj.val - 1, by omega⟩ : Fin 4).val + 1 < 4 := by show tj.val - 1 + 1 < 4; omega
  have e := accMax_succ x tg ti ⟨tj.val - 1, by omega⟩ hs p l
  have ej : (⟨(⟨tj.val - 1, by omega⟩ : Fin 4).val + 1, hs⟩ : Fin 4) = tj := Fin.ext (by show tj.val - 1 + 1 = tj.val; omega)
  rw [ej] at e
  exact e.symm

/-- Folding one more column tile into the running minimum. -/
theorem accMin_step (x : Pts) (tg : Lbl) (ti : Fin 8) (tj : Fin 4) (h : tj.val ≠ 0) (p : Fin 1024) (l : Fin 128) :
    min (accMin x tg ti ⟨tj.val - 1, by omega⟩ p l) (tileMin x tg ti tj p l) = accMin x tg ti tj p l := by
  have hs : (⟨tj.val - 1, by omega⟩ : Fin 4).val + 1 < 4 := by show tj.val - 1 + 1 < 4; omega
  have e := accMin_succ x tg ti ⟨tj.val - 1, by omega⟩ hs p l
  have ej : (⟨(⟨tj.val - 1, by omega⟩ : Fin 4).val + 1, hs⟩ : Fin 4) = tj := Fin.ext (by show tj.val - 1 + 1 = tj.val; omega)
  rw [ej] at e
  exact e.symm

/-- The accumulators after a first column tile: the tile folded into the starting values. -/
theorem outs_A (t : Fin cfg0.N) (h0 : t.val % 4 = 0) (h1 : ¬t.val % 4 = 3) :
    (outsAt0 m c t.val t.isLt).2.1 = k0_pay1 (F := Ideal) (k0_pay8 (F := Ideal) (iblk m c 0 t) (iblk m c 1 t) (iblk m c 4 t) (iblk m c 5 t) (iblk m c 2 t) (iblk m c 3 t)) (k0_pay4 (F := Ideal))
    ∧ (outsAt0 m c t.val t.isLt).2.2 = k0_pay2 (F := Ideal) (k0_pay9 (F := Ideal) (iblk m c 0 t) (iblk m c 1 t) (iblk m c 4 t) (iblk m c 5 t) (iblk m c 2 t) (iblk m c 3 t)) (k0_pay5 (F := Ideal)) := by
  rw [outsAt0_A m c t h0 h1]
  dsimp only
  exact ⟨sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t),
    sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)⟩

/-- The accumulators after a middle column tile: the tile folded into what the point before left. -/
theorem outs_B (t : Fin cfg0.N) (h0 : ¬t.val % 4 = 0) (h1 : ¬t.val % 4 = 3) :
    (outsAt0 m c t.val t.isLt).2.1 = k0_pay1 (F := Ideal) (k0_pay8 (F := Ideal) (iblk m c 0 t) (iblk m c 1 t) (iblk m c 4 t) (iblk m c 5 t) (iblk m c 2 t) (iblk m c 3 t)) (outsAt0 m c (t.val - 1) (Nat.lt_of_le_of_lt (Nat.sub_le _ _) t.isLt)).2.1
    ∧ (outsAt0 m c t.val t.isLt).2.2 = k0_pay2 (F := Ideal) (k0_pay9 (F := Ideal) (iblk m c 0 t) (iblk m c 1 t) (iblk m c 4 t) (iblk m c 5 t) (iblk m c 2 t) (iblk m c 3 t)) (outsAt0 m c (t.val - 1) (Nat.lt_of_le_of_lt (Nat.sub_le _ _) t.isLt)).2.2 := by
  rw [outsAt0_B m c t h0 h1]
  dsimp only
  exact ⟨sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2,
    sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2⟩

/-- The accumulators and the result's buffer after a last column tile. -/
theorem outs_C (t : Fin cfg0.N) (h0 : ¬t.val % 4 = 0) (h1 : t.val % 4 = 3) :
    (outsAt0 m c t.val t.isLt).2.1 = k0_pay1 (F := Ideal) (k0_pay8 (F := Ideal) (iblk m c 0 t) (iblk m c 1 t) (iblk m c 4 t) (iblk m c 5 t) (iblk m c 2 t) (iblk m c 3 t)) (outsAt0 m c (t.val - 1) (Nat.lt_of_le_of_lt (Nat.sub_le _ _) t.isLt)).2.1
    ∧ (outsAt0 m c t.val t.isLt).2.2 = k0_pay2 (F := Ideal) (k0_pay9 (F := Ideal) (iblk m c 0 t) (iblk m c 1 t) (iblk m c 4 t) (iblk m c 5 t) (iblk m c 2 t) (iblk m c 3 t)) (outsAt0 m c (t.val - 1) (Nat.lt_of_le_of_lt (Nat.sub_le _ _) t.isLt)).2.2
    ∧ (outsAt0 m c t.val t.isLt).1 = k0_pay3 (F := Ideal) (outsAt0 m c t.val t.isLt).2.1 (outsAt0 m c t.val t.isLt).2.2 := by
  have e0 := sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  have e1 := sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  have e6 := out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2
  rw [outsAt0_C m c t h0 h1]
  dsimp only
  exact ⟨e0, e1, e6.trans (congrArg₂ (k0_pay3 (F := Ideal)) e0.symm e1.symm)⟩

/-! ## The accumulators are the running maximum and minimum -/

theorem acc_inv_aux : ∀ (n : ℕ) (hn : n < cfg0.N) (ti : Fin 8) (_ : ti.val = n / 4) (tj : Fin 4) (_ : tj.val = n % 4)
    (p : Fin 1024) (l : Fin 128),
    (outsAt0 m c n hn).2.1 (ix2 p l) = accMax (m ((c : Thread nD τ).loc main_arg0) : Pts) (m ((c : Thread nD τ).loc main_arg1) : Lbl) ti tj p l
    ∧ (outsAt0 m c n hn).2.2 (ix2 p l) = accMin (m ((c : Thread nD τ).loc main_arg0) : Pts) (m ((c : Thread nD τ).loc main_arg1) : Lbl) ti tj p l := by
  intro n
  induction n using Nat.strong_induction_on with
  | _ n ih =>
    intro hn ti hi tj hj p l
    by_cases h0 : n % 4 = 0
    · have h1 : ¬n % 4 = 3 := by omega
      obtain ⟨e0, e1⟩ := outs_A m c ⟨n, hn⟩ h0 h1
      have htj : tj = 0 := Fin.ext (by show tj.val = 0; omega)
      subst htj
      refine ⟨?_, ?_⟩
      · refine (congrFun e0 (ix2 p l)).trans ((Pay.pay1_apply _ _ (ix2 p l)).trans ?_)
        refine (congrArg₂ max (Pay.pay4_apply (ix2 p l)) (tile8 m c ⟨n, hn⟩ ti hi 0 hj p l)).trans ?_
        exact (accMax_zero _ _ ti p l).symm
      · refine (congrFun e1 (ix2 p l)).trans ((Pay.pay2_apply _ _ (ix2 p l)).trans ?_)
        refine (congrArg₂ min (Pay.pay5_apply (ix2 p l)) (tile9 m c ⟨n, hn⟩ ti hi 0 hj p l)).trans ?_
        exact (accMin_zero _ _ ti p l).symm
    · have htj : tj.val ≠ 0 := by omega
      obtain ⟨ihMax, ihMin⟩ := ih (n - 1) (by omega) (Nat.lt_of_le_of_lt (Nat.sub_le _ _) hn) ti (by omega)
        ⟨tj.val - 1, by omega⟩ (by show tj.val - 1 = (n - 1) % 4; omega) p l
      have e01 : (outsAt0 m c n hn).2.1 = k0_pay1 (F := Ideal) (k0_pay8 (F := Ideal) (iblk m c 0 ⟨n, hn⟩) (iblk m c 1 ⟨n, hn⟩) (iblk m c 4 ⟨n, hn⟩) (iblk m c 5 ⟨n, hn⟩) (iblk m c 2 ⟨n, hn⟩) (iblk m c 3 ⟨n, hn⟩)) (outsAt0 m c (n - 1) (Nat.lt_of_le_of_lt (Nat.sub_le _ _) hn)).2.1
          ∧ (outsAt0 m c n hn).2.2 = k0_pay2 (F := Ideal) (k0_pay9 (F := Ideal) (iblk m c 0 ⟨n, hn⟩) (iblk m c 1 ⟨n, hn⟩) (iblk m c 4 ⟨n, hn⟩) (iblk m c 5 ⟨n, hn⟩) (iblk m c 2 ⟨n, hn⟩) (iblk m c 3 ⟨n, hn⟩)) (outsAt0 m c (n - 1) (Nat.lt_of_le_of_lt (Nat.sub_le _ _) hn)).2.2 := by
        by_cases h1 : n % 4 = 3
        · exact ⟨(outs_C m c ⟨n, hn⟩ h0 h1).1, (outs_C m c ⟨n, hn⟩ h0 h1).2.1⟩
        · exact outs_B m c ⟨n, hn⟩ h0 h1
      obtain ⟨e0, e1⟩ := e01
      refine ⟨?_, ?_⟩
      · refine (congrFun e0 (ix2 p l)).trans ((Pay.pay1_apply _ _ (ix2 p l)).trans ?_)
        refine (congrArg₂ max ihMax (tile8 m c ⟨n, hn⟩ ti hi tj hj p l)).trans ?_
        exact accMax_step _ _ ti tj htj p l
      · refine (congrFun e1 (ix2 p l)).trans ((Pay.pay2_apply _ _ (ix2 p l)).trans ?_)
        refine (congrArg₂ min ihMin (tile9 m c ⟨n, hn⟩ ti hi tj hj p l)).trans ?_
        exact accMin_step _ _ ti tj htj p l

/-- After grid point t, row tile ti and column tile tj, the two accumulators hold the running maximum and minimum over
    column tiles 0 … tj. -/
theorem acc_inv (t : Fin cfg0.N) (ti : Fin 8) (hi : ti.val = t.val / 4) (tj : Fin 4) (hj : tj.val = t.val % 4)
    (p : Fin 1024) (l : Fin 128) :
    (outsAt0 m c t.val t.isLt).2.1 (ix2 p l) = accMax (m ((c : Thread nD τ).loc main_arg0) : Pts) (m ((c : Thread nD τ).loc main_arg1) : Lbl) ti tj p l
    ∧ (outsAt0 m c t.val t.isLt).2.2 (ix2 p l) = accMin (m ((c : Thread nD τ).loc main_arg0) : Pts) (m ((c : Thread nD τ).loc main_arg1) : Lbl) ti tj p l :=
  acc_inv_aux m c t.val t.isLt ti hi tj hj p l

/-! ## The stored losses -/

/-- At a last column tile the result's buffer holds the row tile's 1024 hinge losses. -/
theorem out_val (t : Fin cfg0.N) (h3 : t.val % 4 = 3) (ti : Fin 8) (hi : ti.val = t.val / 4) (p : Fin 1024) (u : Fin 1) :
    (outsAt0 m c t.val t.isLt).1 (ix2 p u) = rowLoss (m ((c : Thread nD τ).loc main_arg0) : Pts) (m ((c : Thread nD τ).loc main_arg1) : Lbl) (row ti p) := by
  have h0 : ¬t.val % 4 = 0 := by omega
  have eo := (outs_C m c t h0 h3).2.2
  refine (congrFun eo (ix2 p u)).trans ((Pay.pay3_apply _ _ p u).trans ?_)
  have hmax : (⨆ l : Fin 128, (outsAt0 m c t.val t.isLt).2.1 (ix2 p l)) = hardPos (m ((c : Thread nD τ).loc main_arg0) : Pts) (m ((c : Thread nD τ).loc main_arg1) : Lbl) (row ti p) :=
    (iSup_congr fun l => (acc_inv m c t ti hi 3 h3.symm p l).1).trans (hardPos_tiled _ _ ti p)
  have hmin : (⨅ l : Fin 128, (outsAt0 m c t.val t.isLt).2.2 (ix2 p l)) = hardNeg (m ((c : Thread nD τ).loc main_arg0) : Pts) (m ((c : Thread nD τ).loc main_arg1) : Lbl) (row ti p) :=
    (iInf_congr fun l => (acc_inv m c t ti hi 3 h3.symm p l).2).trans (hardNeg_tiled _ _ ti p)
  rw [hmax, hmin]
  rfl

end Cert.KernelIdeal.Val
end
-- ==== Proof.IdealValue.lean ====
/-
  The tiled program's result is the hard-triplet loss.

  After the region the host adds up, from 0, the 8192 entries of the region's result column.  That column holds, at
  row r = i·1024 + p, entry p of what the last grid point of row tile i, point 4·i + 3, left in the result's
  buffer, and that entry is the hinge loss of row r.  So the host's sum is 0 plus the sum of the rows' hinge losses.
-/
import proofs.«170419_j50818053046377_2_alg».proof.Proof.IdealLaunch
import proofs.«170419_j50818053046377_2_alg».proof.Proof.IdealFinal
import proofs.«170419_j50818053046377_2_alg».proof.Proof.HostOps
import proofs.«170419_j50818053046377_2_alg».proof.Proof.Tiles
import proofs.«170419_j50818053046377_2_alg».proof.Proof.Spec
import proofs.«170419_j50818053046377_2_alg».proof.Proof.IdealAcc

set_option maxRecDepth 16384

noncomputable section

namespace Cert.KernelIdeal.Val

open Cert.KernelIdeal Cert.KernelIdeal.Gen Cert.KernelIdeal.Frm Cert.Triplet
open Idealize.ShloMosaic Idealize.ShloMosaic.ValueIdx Idealize.ShloMosaic.TcCoe
open scoped BigOperators

/-- The host's sum of the result column is the loss, given that the last point of each row tile leaves the tile's
    hinge losses in the result's buffer. -/
theorem result_loss_of
    (out_val : ∀ (m : (ℓ : Loc nD τ sig) → Buf (Elt Ideal) ℓ) (c : Dev nD) (t : Fin cfg0.N) (h3 : t.val % 4 = 3) (ti : Fin 8)
      (hi : ti.val = t.val / 4) (p : Fin 1024) (u : Fin 1),
      (outsAt0 m c t.val t.isLt).1 (ix2 p u) = rowLoss (m ((c : Thread nD τ).loc main_arg0)) (m ((c : Thread nD τ).loc main_arg1)) (row ti p))
    (m : (ℓ : Loc nD τ sig) → Buf (Elt Ideal) ℓ) (c : Dev nD) :
    StableHlo.after hostOps1 (We m c) (Proc.devRef .tc main_v7) = fun _ => loss (m ((c : Thread nD τ).loc main_arg0)) (m ((c : Thread nD τ).loc main_arg1)) := by
  refine (tail_sum (We m c)).trans ?_
  funext _
  unfold loss
  refine congrArg (fun s => (0 : EReal) + s) (Finset.sum_congr rfl fun r _ => ?_)
  obtain ⟨i, p, rfl⟩ := row_surj r
  have h : 4 * i.val + 3 < cfg0.N := by rw [show cfg0.N = 32 from N_0]; omega
  have e6 : (We m c (Proc.devRef .tc main_v6) : S8192x1.Idx → EReal) = (outCol m c : S8192x1.Idx → EReal) :=
    (We_v6 m c).trans (final6 m c)
  exact (congrFun e6 (ix2 (row i p) 0)).trans ((outCol_apply m c i p 0 h).trans
    (out_val m c ⟨4 * i.val + 3, h⟩ (by show (4 * i.val + 3) % 4 = 3; omega) i (by show i.val = (4 * i.val + 3) / 4; omega) p 0))

/-- The tiled program's result: the loss of the two argument arrays. -/
theorem result_loss (m : (ℓ : Loc nD τ sig) → Buf (Elt Ideal) ℓ) (c : Dev nD) :
    StableHlo.after hostOps1 (We m c) (Proc.devRef .tc main_v7) = fun _ => loss (m ((c : Thread nD τ).loc main_arg0)) (m ((c : Thread nD τ).loc main_arg1)) :=
  result_loss_of out_val m c

end Cert.KernelIdeal.Val

end
-- ==== Proof.RefLoss.lean ====
/-
  The reference program computes the hard-triplet loss.

  Reading the reference's final value back through its operations, one index at a time:
    * the sum of squares over axis 1 of x ⊙ x at row r is sq x r;
    * x · transpose(x) at (r, c) is Σ_k x(r,k) · x(c,k), the Gram matrix;
    * the combination sq r + sq c − 2 · gram r c, clamped below by 0, is dist x r c;
    * the two selects on label equality are pos and neg (the negated pattern of +1e30 is the pattern of −1e30);
    * a reduce with a maximum body from −∞ over axis 1 is the supremum over the row, a reduce with a minimum body from
      +∞ the infimum: over the extended reals a fold of max from an initial value a is a ⊔ the supremum of the
      entries, and −∞ = ⊥ is the identity of ⊔ (likewise min, ⊓ and +∞ = ⊤);
    * the hinge and the final sum over the rows are rowLoss and loss.
-/
import proofs.«170419_j50818053046377_2_alg».proof.Proof.Gen.ReferenceIdeal.Read
import proofs.«170419_j50818053046377_2_alg».proof.Proof.Spec
import proofs.«170419_j50818053046377_2_alg».proof.Proof.LibRowStat

noncomputable section

namespace Cert.Triplet.Ref

open Idealize.ShloMosaic Idealize.ShloMosaic.ValueIdx
open Cert.ReferenceIdeal Cert.ReferenceIdeal.Gen Cert.ReferenceIdeal.Read
open scoped BigOperators

/-! ## Folds of max and min over a finite type -/

/-- Over the extended reals the fold of max from a over a finite family is a ⊔ the family's supremum. -/
theorem fold_max_eq_sup {ι : Type} [Fintype ι] (a : EReal) (f : ι → EReal) :
    (Finset.univ : Finset ι).fold max a f = a ⊔ ⨆ k, f k := by
  classical
  rw [← Finset.sup_univ_eq_iSup]
  induction (Finset.univ : Finset ι) using Finset.induction_on with
  | empty => simp
  | insert b s hb ih =>
    rw [Finset.fold_insert hb, ih, Finset.sup_insert]
    exact sup_left_comm _ _ _

/-- Over the extended reals the fold of min from a over a finite family is a ⊓ the family's infimum. -/
theorem fold_min_eq_inf {ι : Type} [Fintype ι] (a : EReal) (f : ι → EReal) :
    (Finset.univ : Finset ι).fold min a f = a ⊓ ⨅ k, f k := by
  classical
  rw [← Finset.inf_univ_eq_iInf]
  induction (Finset.univ : Finset ι) using Finset.induction_on with
  | empty => simp
  | insert b s hb ih =>
    rw [Finset.fold_insert hb, ih, Finset.inf_insert]
    exact inf_left_comm _ _ _

/-- Over the extended reals, the host's reduce with a minimum body over the last axis of an [n0, n1] array, read at
    row p, is the fold of min from the initial value over the n1 entries of that row. -/
theorem hostRowMin2_apply {n0 n1 : ℕ} {φ : FTy} {u : Shape} (x : FVec Ideal ⟨2, ![n0, n1]⟩ φ) (init : u.Idx → Ideal φ)
    (h' : (⟨2, ![n0, n1]⟩ : Shape).ReducesTo [1] ⟨1, ![n0]⟩)
    (h : (⟨2, ![n0, n1]⟩ : Shape).Reduces [1] ⟨1, ![n0]⟩) (hu : 0 < u.numel) (p : Fin n0) :
    Host.reduce FloatOps.minimumf x init h' hu (ix1 p)
      = (Finset.univ : Finset (Fin n1)).fold min (init (Shape.Idx.first hu)) (fun k => x (ix2 p k)) := by
  refine (Host.reduce_eq_fold_single FloatOps.minimumf x init h' h hu (ix1 p)).trans ?_
  have hf : (x ∘ h.lift (ix1 p)) = fun k : Fin n1 => x (ix2 p k) := funext fun (k : Fin n1) => congrArg x (by
    funext c
    apply Fin.ext
    match c with
    | ⟨0, _⟩ => rfl
    | ⟨1, _⟩ => rfl)
  exact congrArg (fun f => Finset.fold min (init (Shape.Idx.first hu)) f (Finset.univ : Finset (Fin n1))) hf

/-! ## The constants -/

/-- The pattern 0xFF800000 is −∞. -/
theorem ofBits_negInf : Ideal.ofBits .f32 0xFF800000#32 = (⊥ : EReal) := by
  simp [Ideal.ofBits, Ideal.ieee]

/-- The pattern 0x7F800000 is +∞. -/
theorem ofBits_posInf : Ideal.ofBits .f32 0x7F800000#32 = (⊤ : EReal) := by
  simp [Ideal.ofBits, Ideal.ieee]

/-- The two stand-ins differ in their sign bit only: the negation of +1e30's pattern is −1e30's. -/
theorem neg_posBig : -(Ideal.ofBits .f32 0x7149F2CA#32) = Ideal.ofBits .f32 0xF149F2CA#32 := by
  simp [Ideal.ofBits, Ideal.ieee, -EReal.coe_mul]

/-! ## The composed index functions -/

theorem idx_v1 (r : Fin 8192) (k : Fin 128) : idx_main_v1 (ix1 r) k = ix2 r k := by
  funext a
  match a with
  | ⟨0, _⟩ => rfl
  | ⟨1, _⟩ => rfl

theorem idx_v2_v4 (r c : Fin 8192) : idx_main_v2 (idx_main_v4 (ix2 r c)) = ix1 r := by
  funext a
  match a with
  | ⟨0, _⟩ => rfl

theorem idx_v3_v5 (r c : Fin 8192) : idx_main_v3 (idx_main_v5 (ix2 r c)) = ix1 c := by
  funext a
  match a with
  | ⟨0, _⟩ => rfl

theorem lidx_v8 (r c : Fin 8192) (k : Fin 128) : lidx_main_v8 (ix2 r c) k = ix2 r k := by
  funext a
  match a with
  | ⟨0, _⟩ => rfl
  | ⟨1, _⟩ => rfl

theorem idx_v7_ridx_v8 (r c : Fin 8192) (k : Fin 128) : idx_main_v7 (ridx_main_v8 (ix2 r c) k) = ix2 c k := by
  funext a
  match a with
  | ⟨0, _⟩ => rfl
  | ⟨1, _⟩ => rfl

theorem idx_v14_v16 (r c : Fin 8192) : idx_main_v14 (idx_main_v16 (ix2 r c)) = ix1 r := by
  funext a
  match a with
  | ⟨0, _⟩ => rfl

theorem idx_v15_v17 (r c : Fin 8192) : idx_main_v15 (idx_main_v17 (ix2 r c)) = ix1 c := by
  funext a
  match a with
  | ⟨0, _⟩ => rfl

/-! ## The reference, one quantity at a time -/

variable (x0 : (⟨S8192x128, .f32⟩ : BufTy).Contents (Elt Ideal)) (x1 : (⟨S8192, .i32⟩ : BufTy).Contents (Elt Ideal))

/-- The row sums of x ⊙ x are the squared norms. -/
theorem sq_at (r : Fin 8192) : val_main_v1 (F := Ideal) x0 (ix1 r) = sq x0 r := by
  rw [val_main_v1_apply]
  unfold sq
  refine congrArg₂ (· + ·) Ideal.ofBits_zero_f32 (Finset.sum_congr rfl fun k _ => ?_)
  rw [val_main_v0_apply, idx_v1]
  rfl

/-- x · transpose(x) is the Gram matrix. -/
theorem gram_at (r c : Fin 8192) : val_main_v8 (F := Ideal) x0 (ix2 r c) = gram x0 r c := by
  rw [val_main_v8_apply]
  unfold gram
  refine Finset.sum_congr rfl fun k _ => ?_
  rw [val_main_v7_apply, lidx_v8, idx_v7_ridx_v8]

/-- The clamped squared distance. -/
theorem dist_at (r c : Fin 8192) : val_main_v13 (F := Ideal) x0 (ix2 r c) = dist x0 r c := by
  rw [val_main_v13_apply, val_main_v11_apply, val_main_v6_apply, val_main_v10_apply, val_main_v4_apply,
    val_main_v2_apply, val_main_v5_apply, val_main_v3_apply, val_main_v9_apply, val_main_v12_apply,
    idx_v2_v4, idx_v3_v5, sq_at, sq_at, gram_at]
  unfold dist two
  show max (sq x0 r + sq x0 c - Ideal.ofBits .f32 0x40000000#32 * gram x0 r c) (Ideal.ofBits .f32 0x00000000#32) = _
  rw [Ideal.ofBits_zero_f32]

/-- The label comparison. -/
theorem same_at (r c : Fin 8192) : val_main_v18 (F := Ideal) x1 (ix2 r c) = same x1 r c := by
  rw [val_main_v18_apply, val_main_v16_apply, val_main_v14_apply, val_main_v17_apply, val_main_v15_apply,
    idx_v14_v16, idx_v15_v17]
  rfl

/-- The first select: the distance where the labels agree, −1e30 elsewhere. -/
theorem pos_at (r c : Fin 8192) : val_main_v20 (F := Ideal) x0 x1 (ix2 r c) = pos x0 x1 r c := by
  rw [val_main_v20_apply, same_at, dist_at, val_main_call0_v0_apply, val_main_v19_apply, val_main_cst_2_apply]
  unfold pos negBig
  exact congrArg (Scalar.select (same x1 r c) (dist x0 r c)) neg_posBig

/-- The second select: +1e30 where the labels agree, the distance elsewhere. -/
theorem neg_at (r c : Fin 8192) : val_main_v22 (F := Ideal) x0 x1 (ix2 r c) = neg x0 x1 r c := by
  rw [val_main_v22_apply, same_at, dist_at, val_main_call1_v0_apply, val_main_cst_4_apply]
  rfl

/-- The row maximum from −∞ is the supremum over the row. -/
theorem hardPos_at (r : Fin 8192) : val_main_v21 (F := Ideal) x0 x1 (ix1 r) = hardPos x0 x1 r := by
  unfold val_main_v21
  refine (Cert.RowStat.hostRowMax2_apply (n0 := 8192) (n1 := 8192) (φ := .f32) (val_main_v20 (F := Ideal) x0 x1)
    (val_main_cst_3 (F := Ideal)) reducesTo_S8192x8192_S8192_d1 (by decide) h_S_ r).trans ?_
  rw [fold_max_eq_sup]
  unfold hardPos
  have h0 : val_main_cst_3 (F := Ideal) (Shape.Idx.first h_S_) = (⊥ : EReal) := ofBits_negInf
  rw [h0, bot_sup_eq]
  exact iSup_congr fun c => pos_at x0 x1 r c

/-- The row minimum from +∞ is the infimum over the row. -/
theorem hardNeg_at (r : Fin 8192) : val_main_v23 (F := Ideal) x0 x1 (ix1 r) = hardNeg x0 x1 r := by
  unfold val_main_v23
  refine (hostRowMin2_apply (n0 := 8192) (n1 := 8192) (φ := .f32) (val_main_v22 (F := Ideal) x0 x1)
    (val_main_cst_5 (F := Ideal)) reducesTo_S8192x8192_S8192_d1 (by decide) h_S_ r).trans ?_
  rw [fold_min_eq_inf]
  unfold hardNeg
  have h0 : val_main_cst_5 (F := Ideal) (Shape.Idx.first h_S_) = (⊤ : EReal) := ofBits_posInf
  rw [h0, top_inf_eq]
  exact iInf_congr fun c => neg_at x0 x1 r c

/-- One row's hinge. -/
theorem rowLoss_at (r : Fin 8192) : val_main_v27 (F := Ideal) x0 x1 (ix1 r) = rowLoss x0 x1 r := by
  rw [val_main_v27_apply, val_main_v26_apply, val_main_v24_apply, hardPos_at, hardNeg_at, val_main_v25_apply,
    val_main_call2_v0_apply]
  unfold rowLoss half
  show max (hardPos x0 x1 r - hardNeg x0 x1 r + Ideal.ofBits .f32 0x3F000000#32) (Ideal.ofBits .f32 0x00000000#32) = _
  rw [Ideal.ofBits_zero_f32]

/-- The reference program's result is the loss. -/
theorem ref_loss : val_main_v28 (F := Ideal) x0 x1 = fun _ => loss x0 x1 := by
  funext i
  rw [val_main_v28_apply]
  unfold loss
  refine congrArg₂ (· + ·) Ideal.ofBits_zero_f32 ?_
  let e : S8192.Idx ≃ Fin 8192 :=
    { toFun := fun j => j 0, invFun := ix1, left_inv := fun j => (eq_ix1 j).symm, right_inv := fun _ => rfl }
  rw [← Equiv.sum_comp e.symm]
  exact Finset.sum_congr rfl fun r _ => rowLoss_at x0 x1 r

end Cert.Triplet.Ref

end
-- ==== Proof.lean ====
/-
  The hard-triplet loss: a tiled kernel against its plain reference, over the extended reals.

  Both programs compute, for 8192 points x_r in 128 dimensions with labels t_r, the clamped squared distances
  d(r, c) = max(|x_r|² + |x_c|² − 2 x_r·x_c, 0), each row's hardest positive max_c (d(r, c) where t_r = t_c, else −1e30) and
  hardest negative min_c (+1e30 where t_r = t_c, else d(r, c)), and the sum over rows of max(pos − neg + 1/2, 0).
  The reference takes each maximum and minimum over a whole row at once.  The kernel walks the row in four column tiles
  of 2048, keeps a lane-wise running maximum and minimum (128 lanes, each tile folded in sixteen groups), started from
  the stand-ins −1e30 and +1e30, and reduces across the lanes after the last tile.  Maximum and minimum are associative
  and commutative on the extended reals, so the tiling and the grouping do not matter; the two stand-ins the kernel
  starts from are absorbed because the diagonal entry of every row already carries them: the positive side holds
  d(r, r) ≥ 0 > −1e30 and the negative side holds exactly +1e30 there.  Sums and products appear in the same
  arrangement on both sides, so no law that fails at an infinity is used and the precondition is never opened.

  The frames: each kernel program is run as seven host operations, one region of 32 grid points, two host operations;
  the reference is a straight line of host operations.  No rewrite separates the kernel from its idealization.
-/
import proofs.«170419_j50818053046377_2_alg».proof.Defs
import proofs.«170419_j50818053046377_2_alg».proof.Proof.Gen.Kernel
import proofs.«170419_j50818053046377_2_alg».proof.Proof.Gen.KernelIdeal
import proofs.«170419_j50818053046377_2_alg».proof.Proof.Gen.ReferenceIdeal
import proofs.«170419_j50818053046377_2_alg».proof.Proof.Gen.ReferenceIdeal.Run
import proofs.«170419_j50818053046377_2_alg».proof.Proof.Gen.ReferenceIdeal.Read
import proofs.«170419_j50818053046377_2_alg».proof.Proof.Gen.Pre_finite_inputs
import proofs.«170419_j50818053046377_2_alg».proof.Proof.BitsClaim
import proofs.«170419_j50818053046377_2_alg».proof.Proof.IdealClaim
import proofs.«170419_j50818053046377_2_alg».proof.Proof.IdealValue
import proofs.«170419_j50818053046377_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs to its end and leaves both arguments as they were. -/
theorem frame_kernel : Cert.frame_Kernel (hKernel := Cert.Kernel.Gen.facts) (hPre_finite_inputs := Cert.Pre_finite_inputs.Gen.facts) :=
  fun m ρ _ => Cert.Kernel.Frm.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Frm.frame m ρ

/-- The reference is a line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel and the reference end with the same scalar: both are the loss of the argument arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => fun _ => Cert.Triplet.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono (fun r h c => ⟨(h c).1.trans (Cert.KernelIdeal.Val.result_loss m c), (h c).2⟩)
      (Cert.KernelIdeal.Frm.run_result m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v28_eq, Cert.Triplet.Ref.ref_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
